-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S2x400x10000 : Shape := ⟨3, ![2, 400, 10000]⟩
abbrev S1x400x10000 : Shape := ⟨3, ![1, 400, 10000]⟩

abbrev nBuf : Space → Nat
  | .hbm => 9
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x64, .f32⟩
  | .local _ .vmem, ⟨10, _⟩ => ⟨S10000x64, .f32⟩
  | .local _ .vmem, ⟨11, _⟩ => ⟨S10000x64, .bf16⟩
  | .local _ .vmem, ⟨12, _⟩ => ⟨S2x400x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v40 : BitVec 32 := Scalar.muli arg1 c400_i32
  let v41 : Index := Scalar.indexCast v40
  let c0_22 : Index := 0#32
  ![v41.toNat, 0]
def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let arg1 : BitVec 32 := BitVec.ofNat 32 (i 1).val
  let c2_i32 : BitVec 32 := 2#32
  let v9 : BitVec 1 := Scalar.cmpi .slt arg1 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_off2 (i : grid0.Coords) : Fin 3 → Nat :=
  let arg1 : BitVec 32 := BitVec.ofNat 32 (i 1).val
  let v30 : Index := Scalar.indexCast arg1
  let c0_14 : Index := 0#32
  let c0_15 : Index := 0#32
  ![v30.toNat, 0, 0]
def k0_cond6 (i : grid0.Coords) : BitVec 1 :=
  let arg0 : BitVec 32 := BitVec.ofNat 32 (i 0).val
  let c1_i32_10 : BitVec 32 := 1#32
  let v23 : BitVec 1 := Scalar.cmpi .eq arg0 c1_i32_10
  let arg1 : BitVec 32 := BitVec.ofNat 32 (i 1).val
  let c23_i32_11 : BitVec 32 := 23#32
  let v24 : BitVec 1 := Scalar.cmpi .sge arg1 c23_i32_11
  let v25 : BitVec 1 := Scalar.andi v23 v24
  let v26 : BitVec 32 := Scalar.extui v25
  let c0_i32_12 : BitVec 32 := 0#32
  let v27 : BitVec 1 := Scalar.cmpi .ne v26 c0_i32_12
  v27

def k0_off3 (i : grid0.Coords) : Fin 3 → Nat :=
  let arg1 : BitVec 32 := BitVec.ofNat 32 (i 1).val
  let c23_i32_13 : BitVec 32 := 23#32
  let v28 : BitVec 32 := Scalar.subi arg1 c23_i32_13
  let v29 : Index := Scalar.indexCast v28
  let c0 : Index := 0#32
  let c0_14 : Index := 0#32
  ![v29.toNat, 0, 0]
def k0_cond5 (i : grid0.Coords) : BitVec 1 :=
  let arg0 : BitVec 32 := BitVec.ofNat 32 (i 0).val
  let c1_i32_8 : BitVec 32 := 1#32
  let v18 : BitVec 1 := Scalar.cmpi .eq arg0 c1_i32_8
  let arg1 : BitVec 32 := BitVec.ofNat 32 (i 1).val
  let c23_i32 : BitVec 32 := 23#32
  let v19 : BitVec 1 := Scalar.cmpi .slt arg1 c23_i32
  let v20 : BitVec 1 := Scalar.andi v18 v19
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.addi arg1 c2_i32
  let c24_i32 : BitVec 32 := 24#32
  let v2 : BitVec 32 := Scalar.minsi v1 c24_i32
  let v3 : BitVec 32 := Scalar.select v0 arg1 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c23_i32 : BitVec 32 := 23#32
  let v1 : BitVec 1 := Scalar.cmpi .slt arg1 c23_i32
  let c2_i32 : BitVec 32 := 2#32
  let v2 : BitVec 32 := Scalar.addi arg1 c2_i32
  let c23_i32_0 : BitVec 32 := 23#32
  let v3 : BitVec 32 := Scalar.subi arg1 c23_i32_0
  let v4 : BitVec 32 := Scalar.select v1 v2 v3
  let v5 : BitVec 32 := Scalar.select v0 arg1 v4
  let c0_i32_1 : BitVec 32 := 0#32
  let c0_i32_2 : BitVec 32 := 0#32
  ![v5.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S400x64 : S1x64.Broadcasts S400x64
  inb_S64x64_S64x64_0_0 : ∀ a, (![0, 0] : Fin 2 → Nat) a + S64x64.size a ≤ S64x64.size a
  h_S64x64 : 0 < S64x64.numel
  h_S400x64 : 0 < S400x64.numel
  shapeCasts_S400x64_S400x64 : S400x64.ShapeCasts S400x64
  bitsLt_bf16_f32 : FTy.bits .bf16 < FTy.bits .f32
  h_S1x400x10000 : 0 < S1x400x10000.numel
  shapeCasts_S1x400x10000_S400x10000 : S1x400x10000.ShapeCasts S400x10000
  shapeCasts_S400x10000_S1x400x10000 : S400x10000.ShapeCasts S1x400x10000
  packedbf16_S10000x64_S10000x64_0_0 : (Rect.unit (s := S10000x64) ![0, 0] S10000x64.size inb_S10000x64_S10000x64_0_0).PackedRows (EltTy.packing .bf16)
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off2_inb : ∀ i : grid0.Coords, ∀ (k0_h3 : k0_cond3 i = 1#1), ∀ a, (k0_off2 i) a + S1x400x10000.size a ≤ S2x400x10000.size a
  k0_off2_packedbf16 : ∀ i : grid0.Coords, ∀ (k0_h3 : k0_cond3 i = 1#1), (Rect.unit (s := S2x400x10000) (k0_off2 i) S1x400x10000.size (k0_off2_inb i k0_h3)).PackedRows (EltTy.packing .bf16)
  k0_off3_inb : ∀ i : grid0.Coords, ∀ (k0_h6 : k0_cond6 i = 1#1), ∀ a, (k0_off3 i) a + S1x400x10000.size a ≤ S2x400x10000.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond5 i == 1#1) && !(k0_cond6 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.HandK.Conds.lean ====
import proofs.«177239_g36112085024795_cont_8to1_b_1394_22_alg».proof.Proof.Gen.Kernel.Frame
import proofs.«177239_g36112085024795_cont_8to1_b_1394_22_alg».proof.Proof.Gen.Kernel.Skeleton

set_option maxRecDepth 16384

noncomputable section

/-!
# The grid's fifty points, decided

The kernel walks a grid of 2 × 25 points in row-major order: point `t` has phase `t / 25` and step `t % 25`. Phase 0
computes the hidden layer's projection one block of 400 rows per step; phase 1 computes the output, the 23 blocks
`2 … 24` first (from the streamed adjacency rows), then the blocks `0, 1` (from the adjacency rows kept in scratch).
Here the six branch conditions of the body, the offsets of its three dynamic accesses and the block indices of the
two moving windows are put in closed form over the point's position, each by evaluation at all fifty points.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The six branch conditions of the body, as the body computes them from the grid coordinates. -/
abbrev cond1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
abbrev cond2 (i : grid0.Coords) : Prop := k0_cond2 i = 1#1
abbrev cond3 (i : grid0.Coords) : Prop := k0_cond3 i = 1#1
abbrev cond4 (i : grid0.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1
abbrev cond5 (i : grid0.Coords) : Prop := k0_cond5 i = 1#1
abbrev cond6 (i : grid0.Coords) : Prop := k0_cond6 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val < 2 :=
  (by decide +kernel : ∀ t : Fin grid0.N, cond3 (grid0.coords t) ↔ t.val < 2)
theorem hcond4 : ∀ t : Fin cfg0.N, cond4 (grid0.coords t) ↔ t.val = 25 :=
  (by decide +kernel : ∀ t : Fin grid0.N, cond4 (grid0.coords t) ↔ t.val = 25)
theorem hcond5 : ∀ t : Fin cfg0.N, cond5 (grid0.coords t) ↔ (25 ≤ t.val ∧ t.val < 48) :=
  (by decide +kernel : ∀ t : Fin grid0.N, cond5 (grid0.coords t) ↔ (25 ≤ t.val ∧ t.val < 48))
theorem hcond6 : ∀ t : Fin cfg0.N, cond6 (grid0.coords t) ↔ 48 ≤ t.val :=
  (by decide +kernel : ∀ t : Fin grid0.N, cond6 (grid0.coords t) ↔ 48 ≤ t.val)

/-- Phase 0 stores its 400 projected rows at row `400 · step` of the projection scratch. -/
theorem hoff1 : ∀ t : Fin cfg0.N, k0_off1 (grid0.coords t) = ![400 * (t.val % 25), 0] :=
  (by decide +kernel : ∀ t : Fin grid0.N, k0_off1 (grid0.coords t) = ![400 * (t.val % 25), 0])
/-- The first two steps keep their adjacency rows in slot `step` of the row scratch. -/
theorem hoff2 : ∀ t : Fin cfg0.N, k0_off2 (grid0.coords t) = ![t.val % 25, 0, 0] :=
  (by decide +kernel : ∀ t : Fin grid0.N, k0_off2 (grid0.coords t) = ![t.val % 25, 0, 0])
/-- The last two points read slot `t - 48` of it. -/
theorem hoff3 : ∀ t : Fin cfg0.N, 48 ≤ t.val → k0_off3 (grid0.coords t) = ![t.val - 48, 0, 0] :=
  (by decide +kernel : ∀ t : Fin grid0.N, 48 ≤ t.val → k0_off3 (grid0.coords t) = ![t.val - 48, 0, 0])

/-- The adjacency window's block index: the step in phase 0; in phase 1 the blocks `2 … 24`, then pinned at 24. -/
theorem hidx1 : ∀ t : Fin cfg0.N, (cfg0.win 1).index t = ![if t.val < 25 then t.val else min (t.val - 23) 24, 0] :=
  (by decide +kernel : ∀ t : Fin grid0.N, win0_1.index t = ![if t.val < 25 then t.val else min (t.val - 23) 24, 0])
/-- The output window's block index in phase 1: the blocks `2 … 24`, then `0, 1`. -/
theorem hidx6 : ∀ t : Fin cfg0.N, 25 ≤ t.val → (cfg0.win 6).index t = ![if t.val < 48 then t.val - 23 else t.val - 48, 0] :=
  (by decide +kernel : ∀ t : Fin grid0.N, 25 ≤ t.val → win0_6.index t = ![if t.val < 48 then t.val - 23 else t.val - 48, 0])

/-- One store through the whole-shape rectangle at zero offsets, made last, leaves its payload, whatever was stored before. -/
theorem read_writes_unit_zero {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem hz2 : (![0, 0] : Fin 2 → ℕ) = fun _ => 0 := by funext a; fin_cases a <;> rfl

end Cert.Kernel.Hand

end
-- ==== Proof.HandK.RunA.lean ====
import proofs.«177239_g36112085024795_cont_8to1_b_1394_22_alg».proof.Proof.HandK.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Point 0: the body projects the features (`x · W1`, all 10000 rows) into the first scratch, reads that back for the
    first block's hidden rows, which go to rows `0 … 399` of the projection scratch, and keeps the point's adjacency
    rows in slot 0 of the row scratch. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : cond1 i) (hc2 : cond2 i) (hc3 : cond3 i) (hc4 : ¬cond4 i) (hc5 : ¬cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (f10 : Buf (Elt F) (arg10.view.loc (c : Thread nD τ))) (f12 : Buf (Elt F) (arg12.view.loc (c : Thread nD τ))) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg9 fullShare d)
            ∗ (arg10.view.loc (c : Thread nD τ) ↦[arg10.view.set]{fullShare} f10)
            ∗ (arg12.view.loc (c : Thread nD τ) ↦[arg12.view.set]{fullShare} f12)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare (k0_pay1 x0 w1)
            ∗ (arg10.view.loc (c : Thread nD τ) ↦[arg10.view.set]{fullShare} (arg10.view.writes (Elt F) f10 [⟨Rect.unit (k0_off1 i) S400x64.size (k0_off1_inb i hc2), k0_pay2 a (k0_pay1 x0 w1) b1 w2⟩]))
            ∗ (arg12.view.loc (c : Thread nD τ) ↦[arg12.view.set]{fullShare} (arg12.view.writes (Elt F) f12 [⟨Rect.unit (k0_off2 i) S1x400x10000.size (k0_off2_inb i hc3), k0_pay3 a⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, H10, H12, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4 | exact hc5 | exact hc6)
  sl_step
  sl_unfold_words
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists (arg9.view.writes (Elt F) f9 [⟨Rect.unit ![0, 0] S10000x64.size inb_S10000x64_S10000x64_0_0, k0_pay1 x0 w1⟩]); isplitr
    · ipureintro; exact read_writes_unit_zero _ _ hz2 _ _ _
    simp only [View.readAt_eq_ld, harg2.read_unread, harg3.read_unread, harg4.read_unread, harg5.read_unread, harg6.read_unread, harg7.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H9
  isplitl [H10]
  · simp only [View.readAt_eq_ld, harg2.read_unread, harg3.read_unread, harg4.read_unread, harg5.read_unread, harg6.read_unread, harg7.read_unread, View.readCov_unit_zero (S := S10000x64) arg9.view hz2, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H10
  simp only [View.readAt_eq_ld, harg2.read_unread, harg3.read_unread, harg4.read_unread, harg5.read_unread, harg6.read_unread, harg7.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H12

end Cert.Kernel.Hand

end
-- ==== Proof.HandK.RunB.lean ====
import proofs.«177239_g36112085024795_cont_8to1_b_1394_22_alg».proof.Proof.HandK.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Point 1: the second block's hidden rows go to rows `400 … 799` of the projection scratch, and the point's adjacency
    rows are kept in slot 1 of the row scratch. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : cond2 i) (hc3 : cond3 i) (hc4 : ¬cond4 i) (hc5 : ¬cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s1 : Vec F S10000x64 .f32) (f10 : Buf (Elt F) (arg10.view.loc (c : Thread nD τ))) (f12 : Buf (Elt F) (arg12.view.loc (c : Thread nD τ))) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} f10)
            ∗ (arg12.view.loc (c : Thread nD τ) ↦[arg12.view.set]{fullShare} f12)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} (arg10.view.writes (Elt F) f10 [⟨Rect.unit (k0_off1 i) S400x64.size (k0_off1_inb i hc2), k0_pay2 a s1 b1 w2⟩]))
            ∗ (arg12.view.loc (c : Thread nD τ) ↦[arg12.view.set]{fullShare} (arg12.view.writes (Elt F) f12 [⟨Rect.unit (k0_off2 i) S1x400x10000.size (k0_off2_inb i hc3), k0_pay3 a⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, H10, H12, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  isplitl [H10]
  · simp only [View.readAt_eq_ld, harg2.read_unread, harg3.read_unread, harg4.read_unread, harg5.read_unread, harg6.read_unread, harg7.read_unread, harg9.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H10
  simp only [View.readAt_eq_ld, harg2.read_unread, harg3.read_unread, harg4.read_unread, harg5.read_unread, harg6.read_unread, harg7.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H12

end Cert.Kernel.Hand

end
-- ==== Proof.HandK.RunC.lean ====
import proofs.«177239_g36112085024795_cont_8to1_b_1394_22_alg».proof.Proof.HandK.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Points 2 … 24 (phase 0 past the kept rows): the body reads the adjacency block, the feature projection, the first
    bias and the second weights, and stores the 400 projected rows of the hidden layer at the point's rows of the
    projection scratch. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : cond2 i) (hc3 : ¬cond3 i) (hc4 : ¬cond4 i) (hc5 : ¬cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s1 : Vec F S10000x64 .f32) (f10 : Buf (Elt F) (arg10.view.loc (c : Thread nD τ))) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} f10)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} (arg10.view.writes (Elt F) f10 [⟨Rect.unit (k0_off1 i) S400x64.size (k0_off1_inb i hc2), k0_pay2 a s1 b1 w2⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, H10, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  simp only [View.readAt_eq_ld, harg2.read_unread, harg3.read_unread, harg4.read_unread, harg5.read_unread, harg6.read_unread, harg7.read_unread, harg9.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H10

end Cert.Kernel.Hand

end
-- ==== Proof.HandK.RunD.lean ====
import proofs.«177239_g36112085024795_cont_8to1_b_1394_22_alg».proof.Proof.HandK.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Point 25 (the first of phase 1): the finished projection is copied, narrowed, into the third scratch, and output
    block 2 is the adjacency block times the projection plus the second bias. -/
theorem runD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : ¬cond2 i) (hc3 : ¬cond3 i) (hc4 : cond4 i) (hc5 : cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s2 : Vec F S10000x64 .f32) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg8 fullShare d)
            ∗ owns (c : Thread nD τ) arg10 fullShare s2
            ∗ (∃ d, owns (c : Thread nD τ) arg11 fullShare d)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg8 fullShare (k0_pay5 a s2 b2)
            ∗ owns (c : Thread nD τ) arg10 fullShare s2
            ∗ owns (c : Thread nD τ) arg11 fullShare (k0_pay4 s2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists (arg8.view.writes (Elt F) f8 [⟨Rect.unit ![0, 0] S400x64.size inb_S400x64_S400x64_0_0, k0_pay5 a s2 b2⟩]); isplitr
    · ipureintro; exact read_writes_unit_zero _ _ hz2 _ _ _
    simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H8
  isplitl [H10]
  · iexists _; isplitr; · ipureintro; exact harg10.read_unread _
    iexact H10
  iexists (arg11.view.writes (Elt F) f11 [⟨Rect.unit ![0, 0] S10000x64.size inb_S10000x64_S10000x64_0_0, k0_pay4 s2⟩]); isplitr
  · ipureintro; exact read_writes_unit_zero _ _ hz2 _ _ _
  simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H11

end Cert.Kernel.Hand

end
-- ==== Proof.HandK.RunE.lean ====
import proofs.«177239_g36112085024795_cont_8to1_b_1394_22_alg».proof.Proof.HandK.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Points 26 … 47: output block `t - 23` is the streamed adjacency block times the projection plus the second bias. -/
theorem runE (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : ¬cond2 i) (hc3 : ¬cond3 i) (hc4 : ¬cond4 i) (hc5 : cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s2 : Vec F S10000x64 .f32) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg8 fullShare d)
            ∗ owns (c : Thread nD τ) arg10 fullShare s2
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg8 fullShare (k0_pay5 a s2 b2)
            ∗ owns (c : Thread nD τ) arg10 fullShare s2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists (arg8.view.writes (Elt F) f8 [⟨Rect.unit ![0, 0] S400x64.size inb_S400x64_S400x64_0_0, k0_pay5 a s2 b2⟩]); isplitr
    · ipureintro; exact read_writes_unit_zero _ _ hz2 _ _ _
    simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H8
  iexists _; isplitr; · ipureintro; exact harg10.read_unread _
  iexact H10

end Cert.Kernel.Hand

end
-- ==== Proof.HandK.RunF.lean ====
import proofs.«177239_g36112085024795_cont_8to1_b_1394_22_alg».proof.Proof.HandK.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Points 48, 49: output block `t - 48` is the kept adjacency rows of slot `t - 48` times the narrowed projection plus the
    second bias. -/
theorem runF (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : ¬cond2 i) (hc3 : ¬cond3 i) (hc4 : ¬cond4 i) (hc5 : ¬cond5 i) (hc6 : cond6 i)
    (x0 : Vec F S10000x128 .f32) (a : Vec F S400x10000 .f32) (w1 : Vec F S128x64 .f32) (b1 : Vec F S1x64 .f32) (w2 : Vec F S64x64 .f32) (b2 : Vec F S1x64 .f32) (s2b : Vec F S10000x64 .bf16) (ca : Vec F S2x400x10000 .bf16) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg8 fullShare d)
            ∗ owns (c : Thread nD τ) arg11 fullShare s2b
            ∗ owns (c : Thread nD τ) arg12 fullShare ca
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg8 fullShare (k0_pay6 (View.ld ca (Rect.unit (k0_off3 i) S1x400x10000.size (k0_off3_inb i hc6))) s2b b2)
            ∗ owns (c : Thread nD τ) arg11 fullShare s2b
            ∗ owns (c : Thread nD τ) arg12 fullShare ca) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists (arg8.view.writes (Elt F) f8 [⟨Rect.unit ![0, 0] S400x64.size inb_S400x64_S400x64_0_0, k0_pay6 (View.ld ca (Rect.unit (k0_off3 i) S1x400x10000.size (k0_off3_inb i hc6))) s2b b2⟩]); isplitr
    · ipureintro; exact read_writes_unit_zero _ _ hz2 _ _ _
    simp only [View.readAt_eq_ld, harg2.read_unread, harg3.read_unread, harg4.read_unread, harg5.read_unread, harg6.read_unread, harg7.read_unread, harg11.read_unread, harg12.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H8
  isplitl [H11]
  · iexists _; isplitr; · ipureintro; exact harg11.read_unread _
    iexact H11
  iexists _; isplitr; · ipureintro; exact harg12.read_unread _
  iexact H12

end Cert.Kernel.Hand

end
-- ==== Proof.HandK.Data.lean ====
import proofs.«177239_g36112085024795_cont_8to1_b_1394_22_alg».proof.Proof.HandK.RunA
import proofs.«177239_g36112085024795_cont_8to1_b_1394_22_alg».proof.Proof.HandK.RunB
import proofs.«177239_g36112085024795_cont_8to1_b_1394_22_alg».proof.Proof.HandK.RunC
import proofs.«177239_g36112085024795_cont_8to1_b_1394_22_alg».proof.Proof.HandK.RunD
import proofs.«177239_g36112085024795_cont_8to1_b_1394_22_alg».proof.Proof.HandK.RunE
import proofs.«177239_g36112085024795_cont_8to1_b_1394_22_alg».proof.Proof.HandK.RunF
import Idealize.ShloMosaic.Lib.ValueIdx

set_option maxRecDepth 16384

noncomputable section

/-!
# What the kernel keeps between points, named

The feature projection `s1 = x · W1` (written at point 0), the hidden layer's projection `s2` (row block `t` written at
point `t` of phase 0: `relu(adj[t] · s1 + b1) · W2`), its narrowed copy (written at point 25) and the two kept adjacency
blocks (written at points 0 and 1) live in scratch buffers that the grid's points hand on to one another. They are
named here as functions of the argument arrays' blocks, with the invariant that says, before each point, which part of
each scratch already holds its named contents; and the relation each point leaves between what it finds and what it
leaves in the seven staged windows.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The grid's point at position `n`. -/
def pt (n : ℕ) : Fin cfg0.N := ⟨n % 50, lt_of_lt_of_eq (Nat.mod_lt _ (by omega)) N_0.symm⟩

theorem N50 (t : Fin cfg0.N) : t.val < 50 := lt_of_lt_of_eq t.isLt N_0

theorem pt_of (t : Fin cfg0.N) {n : ℕ} (h : n = t.val) : pt n = t :=
  Fin.ext (by show n % 50 = t.val; have := N50 t; omega)

/-- The feature projection `x · W1`, from the blocks the first point is handed. -/
def S1 (c : Dev nD) : Vec F S10000x64 .f32 := k0_pay1 (iblk m c 0 (pt 0)) (iblk m c 2 (pt 0))

/-- The 400 rows of the hidden layer's projection that point `t` of phase 0 computes. -/
def S2blk (c : Dev nD) (t : Fin cfg0.N) : Vec F S400x64 .f32 := k0_pay2 (iblk m c 1 t) (S1 m c) (iblk m c 3 t) (iblk m c 4 t)

/-- The hidden layer's projection, all 10000 rows: row `r` is row `r % 400` of the block point `r / 400` computes. -/
def S2 (c : Dev nD) : Vec F S10000x64 .f32 := fun y =>
  S2blk m c (pt ((y 0).val / 400))
    (ix2 ⟨(y 0).val % 400, Nat.mod_lt _ (by omega)⟩ ⟨(y 1).val, (y 1).isLt⟩)

/-- The kept adjacency rows: slot `s` holds the block point `s` was handed, narrowed. -/
def CA (c : Dev nD) : Vec F S2x400x10000 .bf16 := fun y =>
  k0_pay3 (iblk m c 1 (pt (y 0).val))
    (ix3 ⟨0, Nat.one_pos⟩ ⟨(y 1).val, (y 1).isLt⟩ ⟨(y 2).val, (y 2).isLt⟩)

/-- The four scratch buffers as whole memrefs. -/
abbrev sc0 : Memref sig .tc .vmem S10000x64 .f32 := Memref.whole cc0_scratch0
abbrev sc1 : Memref sig .tc .vmem S10000x64 .f32 := Memref.whole cc0_scratch1
abbrev sc2 : Memref sig .tc .vmem S10000x64 .bf16 := Memref.whole cc0_scratch2
abbrev sc3 : Memref sig .tc .vmem S2x400x10000 .bf16 := Memref.whole cc0_scratch3

/-- What is known of each scratch before the point at position `n`. -/
def P9 (c : Dev nD) (n : ℕ) (X : Vec F S10000x64 .f32) : Prop := 1 ≤ n → X = S1 m c
def P10 (c : Dev nD) (n : ℕ) (X : Vec F S10000x64 .f32) : Prop := ∀ y : S10000x64.Idx, (y 0).val < 400 * n → X y = S2 m c y
def P11 (c : Dev nD) (n : ℕ) (X : Vec F S10000x64 .bf16) : Prop := 26 ≤ n → X = k0_pay4 (S2 m c)
def P12 (c : Dev nD) (n : ℕ) (X : Vec F S2x400x10000 .bf16) : Prop := ∀ y : S2x400x10000.Idx, (y 0).val < n → X y = CA m c y

/-- The invariant before the point at position `n`: each scratch at contents of which that much is known, and the
    generator register at some state. -/
def Phi (c : Dev nD) (n : ℕ) : sProp 𝕄 :=
  iprop((∃ X, ⌜P9 m c n X⌝ ∗ owns (c : Thread nD τ) sc0 fullShare X)
    ∗ (∃ f, ⌜P10 m c n (sc1.view.read (Elt F) f)⌝ ∗ (sc1.view.loc (c : Thread nD τ) ↦[sc1.view.set]{fullShare} f))
    ∗ (∃ X, ⌜P11 m c n X⌝ ∗ owns (c : Thread nD τ) sc2 fullShare X)
    ∗ (∃ f, ⌜P12 m c n (sc3.view.read (Elt F) f)⌝ ∗ (sc3.view.loc (c : Thread nD τ) ↦[sc3.view.set]{fullShare} f))
    ∗ (∃ r, prngReg c r))

/-- The class invariant with the scratch operands as whole memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

theorem hin (c : Dev nD) : Pipeline.ΦA spec0 c ⊢ Phi m c 0 := by
  rw [PhiA_eq]; unfold Phi
  iintro ⟨⟨⟨%d0, H0⟩, ⟨%d1, H1⟩, ⟨%d2, H2⟩, ⟨%d3, H3⟩⟩, Hg⟩
  isplitl [H0]
  · iexists d0; isplitr; · ipureintro; intro h; omega
    iexact H0
  isplitl [H1]
  · unfold owns; icases H1 with ⟨%f1, -, H1⟩
    iexists f1; isplitr; · ipureintro; intro y h; omega
    iexact H1
  isplitl [H2]
  · iexists d2; isplitr; · ipureintro; intro h; omega
    iexact H2
  isplitl [H3]
  · unfold owns; icases H3 with ⟨%f3, -, H3⟩
    iexists f3; isplitr; · ipureintro; intro y h; omega
    iexact H3
  iexact Hg

theorem hout (c : Dev nD) (n : ℕ) : Phi m c n ⊢ Pipeline.ΦA spec0 c := by
  rw [PhiA_eq]; unfold Phi
  iintro ⟨⟨%d0, -, H0⟩, ⟨%f1, -, H1⟩, ⟨%d2, -, H2⟩, ⟨%f3, -, H3⟩, Hg⟩
  isplitr [Hg]
  · isplitl [H0]; · iexists d0; iexact H0
    isplitl [H1]
    · unfold owns; iexists _; iexists f1; isplitr; · ipureintro; rfl
      iexact H1
    isplitl [H2]; · iexists d2; iexact H2
    unfold owns; iexists _; iexists f3; isplitr; · ipureintro; rfl
    iexact H3
  iexact Hg

/-- The proof data, relational: the arrays as the region finds them; an input's staging buffer is left as found; the
    output's staging buffer, at a point of phase 1, is left at the point's output block — the streamed adjacency block
    times the projection plus the bias at points 25 … 47, the kept rows times the narrowed projection plus the bias at
    points 48, 49 — and at a point of phase 0 at anything (the body stores nothing there, and every block written back
    then is written again in phase 1). -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => (cond5 (grid0.coords t) → X = k0_pay5 (iblk m c 1 t) (S2 m c) (iblk m c 5 t))
        ∧ (∀ h6 : cond6 (grid0.coords t), X = k0_pay6 (View.ld (CA m c) (Rect.unit (k0_off3 (grid0.coords t)) S1x400x10000.size (k0_off3_inb (grid0.coords t) h6))) (k0_pay4 (S2 m c)) (iblk m c 5 t))
  Φ t := Phi m c t.val
  q _ := fullShare
  owed _ := 0

theorem A_eq (c : Dev nD) (w : Fin cfg0.W) : (rdat m c).A w = V m c (Pipeline.arrRef spec0 w) := by
  dsimp only [rdat]

theorem after_in (c : Dev nD) (w : Fin cfg0.W) (hw : w.val < 6) (t : Fin cfg0.N) (Y X) : (rdat m c).after w t Y X ↔ X = Y := by
  match w, hw with
  | ⟨0, _⟩, _ => exact Iff.rfl
  | ⟨1, _⟩, _ => exact Iff.rfl
  | ⟨2, _⟩, _ => exact Iff.rfl
  | ⟨3, _⟩, _ => exact Iff.rfl
  | ⟨4, _⟩, _ => exact Iff.rfl
  | ⟨5, _⟩, _ => exact Iff.rfl

theorem after_out (c : Dev nD) (t : Fin cfg0.N) (Y X : Vec F S400x64 .f32) :
    (rdat m c).after 6 t Y X ↔ ((cond5 (grid0.coords t) → X = k0_pay5 (iblk m c 1 t) (S2 m c) (iblk m c 5 t))
        ∧ (∀ h6 : cond6 (grid0.coords t), X = k0_pay6 (View.ld (CA m c) (Rect.unit (k0_off3 (grid0.coords t)) S1x400x10000.size (k0_off3_inb (grid0.coords t) h6))) (k0_pay4 (S2 m c)) (iblk m c 5 t))) :=
  Iff.rfl

end Cert.Kernel.Hand

end
-- ==== Proof.HandK.Steps.lean ====
import proofs.«177239_g36112085024795_cont_8to1_b_1394_22_alg».proof.Proof.HandK.Data
import Idealize.ShloMosaic.Lib.WritesUnit

set_option maxRecDepth 16384

noncomputable section

/-!
# One point's store into a scratch it fills piece by piece

The projection scratch gains the rows `400 t … 400 t + 399` at point `t` of phase 0 and keeps the rows below; the row
scratch gains slot `t` at points 0 and 1 and keeps the slot below.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- After point `t` of phase 0 the projection scratch's rows below `400 (t + 1)` are the projection's: those below `400 t`
    as before, the block just stored by the definition of the projection's row block `t`. -/
theorem P10_step (c : Dev nD) (t : Fin cfg0.N) (ht : t.val < 25) (hc2 : cond2 (grid0.coords t))
    (f : Buf (Elt F) (sc1.view.loc (c : Thread nD τ))) (h : P10 m c t.val (sc1.view.read (Elt F) f)) :
    P10 m c (t.val + 1) (sc1.view.read (Elt F) (sc1.view.writes (Elt F) f
      [⟨Rect.unit (k0_off1 (grid0.coords t)) S400x64.size (k0_off1_inb (grid0.coords t) hc2), S2blk m c t⟩])) := by
  intro y hy
  have hoff := hoff1 t
  have hmod : t.val % 25 = t.val := Nat.mod_eq_of_lt ht
  by_cases hlt : (y 0).val < 400 * t.val
  · rw [View.read_writes_cons_unit_of_not_mem _ _ _ _ _ y hoff (0 : Fin 2)
      (Or.inl (by show (y 0).val < 400 * (t.val % 25); rw [hmod]; exact hlt))]
    exact h y hlt
  · have hge : 400 * t.val ≤ (y 0).val := by omega
    have hx0 : (y 0).val - 400 * t.val < 400 := by omega
    have key := View.read_writes_cons_unit_of_mem sc1.view f (k0_off1_inb (grid0.coords t) hc2) (S2blk m c t) [] y
      (ix2 (⟨(y 0).val - 400 * t.val, hx0⟩ : Fin 400) (⟨(y 1).val, (y 1).isLt⟩ : Fin 64)) hoff
      (Fin.forall_fin_two.mpr ⟨by show (y 0).val = 400 * (t.val % 25) + ((y 0).val - 400 * t.val); rw [hmod]; omega,
        by show (y 1).val = 0 + (y 1).val; omega⟩)
    refine key.trans ?_
    unfold S2
    rw [pt_of t (show (y 0).val / 400 = t.val by omega)]
    congr 1
    funext a
    match a with
    | ⟨0, _⟩ => exact Fin.ext (by show (y 0).val - 400 * t.val = (y 0).val % 400; omega)
    | ⟨1, _⟩ => rfl

/-- After point `t` (0 or 1) the row scratch's slots up to `t` hold the kept rows. -/
theorem P12_step (c : Dev nD) (t : Fin cfg0.N) (ht : t.val < 2) (hc3 : cond3 (grid0.coords t))
    (f : Buf (Elt F) (sc3.view.loc (c : Thread nD τ))) (h : P12 m c t.val (sc3.view.read (Elt F) f)) :
    P12 m c (t.val + 1) (sc3.view.read (Elt F) (sc3.view.writes (Elt F) f
      [⟨Rect.unit (k0_off2 (grid0.coords t)) S1x400x10000.size (k0_off2_inb (grid0.coords t) hc3), k0_pay3 (iblk m c 1 t)⟩])) := by
  intro y hy
  have hoff := hoff2 t
  have hmod : t.val % 25 = t.val := Nat.mod_eq_of_lt (by omega)
  by_cases hlt : (y 0).val < t.val
  · rw [View.read_writes_cons_unit_of_not_mem _ _ _ _ _ y hoff (0 : Fin 3)
      (Or.inl (by show (y 0).val < t.val % 25; rw [hmod]; exact hlt))]
    exact h y hlt
  · have hge : (y 0).val = t.val := by omega
    have key := View.read_writes_cons_unit_of_mem sc3.view f (k0_off2_inb (grid0.coords t) hc3) (k0_pay3 (iblk m c 1 t)) [] y
      (ix3 (⟨0, Nat.one_pos⟩ : Fin 1) (⟨(y 1).val, (y 1).isLt⟩ : Fin 400) (⟨(y 2).val, (y 2).isLt⟩ : Fin 10000)) hoff
      (by
        intro a
        match a with
        | ⟨0, _⟩ => show (y 0).val = t.val % 25 + 0; omega
        | ⟨1, _⟩ => show (y 1).val = 0 + (y 1).val; omega
        | ⟨2, _⟩ => show (y 2).val = 0 + (y 2).val; omega)
    refine key.trans ?_
    unfold CA
    rw [pt_of t hge]

end Cert.Kernel.Hand

end
-- ==== Proof.HandK.BodyCommon.lean ====
import proofs.«177239_g36112085024795_cont_8to1_b_1394_22_alg».proof.Proof.HandK.Steps
import Idealize.ShloMosaic.Lib.Pipeline.FrameBody

set_option maxRecDepth 16384

noncomputable section

/-!
# The body obligation's two sides, and what an input's staging buffer holds

An input window's staging buffer holds the window's block at every point, fetched there or not: the body leaves it as
found, and an unfetched window's block index has not moved.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

theorem finds_0 (c : Dev nD) (t : Fin cfg0.N) (Y) (h : (rdat m c).Finds 0 t Y) : Y = iblk m c 0 t := by
  obtain ⟨d, hd⟩ := RDat.finds_in_eq_fetched (rdat m c) 0 rfl (fun _ _ _ => rfl) (fun _ _ _ h => h) t Y h
  rw [hd]; unfold RDat.fetched RDat.blockOf iblk; rw [A_eq]; try rfl

theorem finds_1 (c : Dev nD) (t : Fin cfg0.N) (Y) (h : (rdat m c).Finds 1 t Y) : Y = iblk m c 1 t := by
  obtain ⟨d, hd⟩ := RDat.finds_in_eq_fetched (rdat m c) 1 rfl (fun _ _ _ => rfl) (fun _ _ _ h => h) t Y h
  rw [hd]; unfold RDat.fetched RDat.blockOf iblk; rw [A_eq]; try rfl

theorem finds_2 (c : Dev nD) (t : Fin cfg0.N) (Y) (h : (rdat m c).Finds 2 t Y) : Y = iblk m c 2 t := by
  obtain ⟨d, hd⟩ := RDat.finds_in_eq_fetched (rdat m c) 2 rfl (fun _ _ _ => rfl) (fun _ _ _ h => h) t Y h
  rw [hd]; unfold RDat.fetched RDat.blockOf iblk; rw [A_eq]; try rfl

theorem finds_3 (c : Dev nD) (t : Fin cfg0.N) (Y) (h : (rdat m c).Finds 3 t Y) : Y = iblk m c 3 t := by
  obtain ⟨d, hd⟩ := RDat.finds_in_eq_fetched (rdat m c) 3 rfl (fun _ _ _ => rfl) (fun _ _ _ h => h) t Y h
  rw [hd]; unfold RDat.fetched RDat.blockOf iblk; rw [A_eq]; try rfl

theorem finds_4 (c : Dev nD) (t : Fin cfg0.N) (Y) (h : (rdat m c).Finds 4 t Y) : Y = iblk m c 4 t := by
  obtain ⟨d, hd⟩ := RDat.finds_in_eq_fetched (rdat m c) 4 rfl (fun _ _ _ => rfl) (fun _ _ _ h => h) t Y h
  rw [hd]; unfold RDat.fetched RDat.blockOf iblk; rw [A_eq]; try rfl

theorem finds_5 (c : Dev nD) (t : Fin cfg0.N) (Y) (h : (rdat m c).Finds 5 t Y) : Y = iblk m c 5 t := by
  obtain ⟨d, hd⟩ := RDat.finds_in_eq_fetched (rdat m c) 5 rfl (fun _ _ _ => rfl) (fun _ _ _ h => h) t Y h
  rw [hd]; unfold RDat.fetched RDat.blockOf iblk; rw [A_eq]; try rfl

/-- What the body is called with at point `t`, the windows' buffers at contents `Y`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6))

/-- What it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (win0_0.stage (cfg0.slots t 0)) fullShare X)
    ∗ (∃ X, ⌜(rdat m c).after 1 t (Y 1) X⌝ ∗ owns (c : Thread nD τ) (win0_1.stage (cfg0.slots t 1)) fullShare X)
    ∗ (∃ X, ⌜(rdat m c).after 2 t (Y 2) X⌝ ∗ owns (c : Thread nD τ) (win0_2.stage (cfg0.slots t 2)) fullShare X)
    ∗ (∃ X, ⌜(rdat m c).after 3 t (Y 3) X⌝ ∗ owns (c : Thread nD τ) (win0_3.stage (cfg0.slots t 3)) fullShare X)
    ∗ (∃ X, ⌜(rdat m c).after 4 t (Y 4) X⌝ ∗ owns (c : Thread nD τ) (win0_4.stage (cfg0.slots t 4)) fullShare X)
    ∗ (∃ X, ⌜(rdat m c).after 5 t (Y 5) X⌝ ∗ owns (c : Thread nD τ) (win0_5.stage (cfg0.slots t 5)) fullShare X)
    ∗ (∃ X, ⌜(rdat m c).after 6 t (Y 6) X⌝ ∗ owns (c : Thread nD τ) (win0_6.stage (cfg0.slots t 6)) fullShare X))

/-- The shape every point's proof has. -/
abbrev Sound (c : Dev nD) (t : Fin cfg0.N) (Y : (w : Fin cfg0.W) → (cfg0.win w).block.Idx → Elt F (cfg0.win w).elt) : Prop :=
  bodyPre m c t Y ⊢ wp frame (wpE (defs₀ (F := F)) Variants.none c none) Set.univ (bodyAt0 t) (fun _ => bodyPost m c t Y)

end Cert.Kernel.Hand

end
-- ==== Proof.HandK.BodyA.lean ====
import proofs.«177239_g36112085024795_cont_8to1_b_1394_22_alg».proof.Proof.HandK.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Point 0: the first scratch gains the feature projection, the projection scratch its first 400 rows, the row scratch
    its slot 0. -/
theorem bodyA (c : Dev nD) (t : Fin cfg0.N) (Y : (w : Fin cfg0.W) → (cfg0.win w).block.Idx → Elt F (cfg0.win w).elt)
    (hY : ∀ w, (rdat m c).Finds w t (Y w)) (h : t.val = 0) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : cond1 (grid0.coords t) := (hcond1 t).mpr (by omega)
  have hc2 : cond2 (grid0.coords t) := (hcond2 t).mpr (by omega)
  have hc3 : cond3 (grid0.coords t) := (hcond3 t).mpr (by omega)
  have hc4 : ¬cond4 (grid0.coords t) := fun hh => absurd ((hcond4 t).mp hh) (by omega)
  have hc5 : ¬cond5 (grid0.coords t) := fun hh => absurd ((hcond5 t).mp hh) (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  have hS1 : k0_pay1 (iblk m c 0 t) (iblk m c 2 t) = S1 m c := by
    unfold S1; rw [pt_of t (show 0 = t.val from h.symm)]
  iapply (runA c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) f10 f12 Set.univ _)
  isplitl [W0]; · iexact W0
  isplitl [W1]; · iexact W1
  isplitl [W2]; · iexact W2
  isplitl [W3]; · iexact W3
  isplitl [W4]; · iexact W4
  isplitl [W5]; · iexact W5
  isplitl [H9]; · iexists X9; iexact H9
  isplitl [H10]; · iexact H10
  isplitl [H12]; · iexact H12
  iintro ⟨W0, W1, W2, W3, W4, W5, H9, H10, H12⟩
  rw [hS1]
  isplitl [H9 H10 H11 H12 Hg]
  · isplitl [H9]
    · iexists _; isplitr; · ipureintro; intro _; rfl
      iexact H9
    isplitl [H10]
    · iexists _; isplitr
      · ipureintro; exact P10_step m c t (by omega) hc2 f10 h10
      iexact H10
    isplitl [H11]
    · iexists X11; isplitr; · ipureintro; intro hh; omega
      iexact H11
    isplitl [H12]
    · iexists _; isplitr
      · ipureintro; exact P12_step m c t (by omega) hc3 f12 h12
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (Y 6); isplitr
  · ipureintro; exact (after_out m c t _ _).mpr ⟨fun hh => absurd hh hc5, fun hh => absurd hh hc6⟩
  iexact W6

end Cert.Kernel.Hand

end
-- ==== Proof.HandK.BodyB.lean ====
import proofs.«177239_g36112085024795_cont_8to1_b_1394_22_alg».proof.Proof.HandK.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Point 1: the projection scratch gains rows `400 … 799`, the row scratch its slot 1. -/
theorem bodyB (c : Dev nD) (t : Fin cfg0.N) (Y : (w : Fin cfg0.W) → (cfg0.win w).block.Idx → Elt F (cfg0.win w).elt)
    (hY : ∀ w, (rdat m c).Finds w t (Y w)) (h : t.val = 1) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : cond2 (grid0.coords t) := (hcond2 t).mpr (by omega)
  have hc3 : cond3 (grid0.coords t) := (hcond3 t).mpr (by omega)
  have hc4 : ¬cond4 (grid0.coords t) := fun hh => absurd ((hcond4 t).mp hh) (by omega)
  have hc5 : ¬cond5 (grid0.coords t) := fun hh => absurd ((hcond5 t).mp hh) (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  obtain rfl : X9 = S1 m c := h9 (by omega)
  iapply (runB c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S1 m c) f10 f12 Set.univ _)
  isplitl [W0]; · iexact W0
  isplitl [W1]; · iexact W1
  isplitl [W2]; · iexact W2
  isplitl [W3]; · iexact W3
  isplitl [W4]; · iexact W4
  isplitl [W5]; · iexact W5
  isplitl [H9]; · iexact H9
  isplitl [H10]; · iexact H10
  isplitl [H12]; · iexact H12
  iintro ⟨W0, W1, W2, W3, W4, W5, H9, H10, H12⟩
  isplitl [H9 H10 H11 H12 Hg]
  · isplitl [H9]
    · iexists _; isplitr; · ipureintro; intro _; rfl
      iexact H9
    isplitl [H10]
    · iexists _; isplitr
      · ipureintro; exact P10_step m c t (by omega) hc2 f10 h10
      iexact H10
    isplitl [H11]
    · iexists X11; isplitr; · ipureintro; intro hh; omega
      iexact H11
    isplitl [H12]
    · iexists _; isplitr
      · ipureintro; exact P12_step m c t (by omega) hc3 f12 h12
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (Y 6); isplitr
  · ipureintro; exact (after_out m c t _ _).mpr ⟨fun hh => absurd hh hc5, fun hh => absurd hh hc6⟩
  iexact W6

end Cert.Kernel.Hand

end
-- ==== Proof.HandK.BodyC.lean ====
import proofs.«177239_g36112085024795_cont_8to1_b_1394_22_alg».proof.Proof.HandK.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Points 2 … 24: the projection scratch gains the point's 400 rows; everything else is handed on as found. -/
theorem bodyC (c : Dev nD) (t : Fin cfg0.N) (Y : (w : Fin cfg0.W) → (cfg0.win w).block.Idx → Elt F (cfg0.win w).elt)
    (hY : ∀ w, (rdat m c).Finds w t (Y w)) (h : 2 ≤ t.val ∧ t.val < 25) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : cond2 (grid0.coords t) := (hcond2 t).mpr (by omega)
  have hc3 : ¬cond3 (grid0.coords t) := fun hh => absurd ((hcond3 t).mp hh) (by omega)
  have hc4 : ¬cond4 (grid0.coords t) := fun hh => absurd ((hcond4 t).mp hh) (by omega)
  have hc5 : ¬cond5 (grid0.coords t) := fun hh => absurd ((hcond5 t).mp hh) (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  obtain rfl : X9 = S1 m c := h9 (by omega)
  iapply (runC c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S1 m c) f10 Set.univ _)
  isplitl [W0]; · iexact W0
  isplitl [W1]; · iexact W1
  isplitl [W2]; · iexact W2
  isplitl [W3]; · iexact W3
  isplitl [W4]; · iexact W4
  isplitl [W5]; · iexact W5
  isplitl [H9]; · iexact H9
  isplitl [H10]; · iexact H10
  iintro ⟨W0, W1, W2, W3, W4, W5, H9, H10⟩
  isplitl [H9 H10 H11 H12 Hg]
  · isplitl [H9]
    · iexists _; isplitr; · ipureintro; intro _; rfl
      iexact H9
    isplitl [H10]
    · iexists _; isplitr
      · ipureintro; exact P10_step m c t (by omega) hc2 f10 h10
      iexact H10
    isplitl [H11]
    · iexists X11; isplitr; · ipureintro; intro hh; omega
      iexact H11
    isplitl [H12]
    · iexists f12; isplitr; · ipureintro; intro y hy; exact h12 y (by have : (y 0).val < 2 := (y 0).isLt; omega)
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (Y 6); isplitr
  · ipureintro; exact (after_out m c t _ _).mpr ⟨fun hh => absurd hh hc5, fun hh => absurd hh hc6⟩
  iexact W6

end Cert.Kernel.Hand

end
-- ==== Proof.HandK.BodyD.lean ====
import proofs.«177239_g36112085024795_cont_8to1_b_1394_22_alg».proof.Proof.HandK.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Point 25: the third scratch gains the narrowed projection; the output's staging buffer is left at output block 2. -/
theorem bodyD (c : Dev nD) (t : Fin cfg0.N) (Y : (w : Fin cfg0.W) → (cfg0.win w).block.Idx → Elt F (cfg0.win w).elt)
    (hY : ∀ w, (rdat m c).Finds w t (Y w)) (h : t.val = 25) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : ¬cond2 (grid0.coords t) := fun hh => absurd ((hcond2 t).mp hh) (by omega)
  have hc3 : ¬cond3 (grid0.coords t) := fun hh => absurd ((hcond3 t).mp hh) (by omega)
  have hc4 : cond4 (grid0.coords t) := (hcond4 t).mpr (by omega)
  have hc5 : cond5 (grid0.coords t) := (hcond5 t).mpr (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  iapply (runD c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S2 m c) Set.univ _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [H10]
  · unfold owns; iexists f10; isplitr
    · ipureintro; funext y; exact h10 y (by have : (y 0).val < 10000 := (y 0).isLt; omega)
    iexact H10
  isplitl [H11]; · iexists X11; iexact H11
  iintro ⟨W0, W1, W2, W3, W4, W5, W6, H10, H11⟩
  isplitl [H9 H10 H11 H12 Hg]
  · isplitl [H9]
    · iexists X9; isplitr; · ipureintro; intro _; exact h9 (by omega)
      iexact H9
    isplitl [H10]
    · unfold owns; icases H10 with ⟨%f10', %hf10, H10⟩
      iexists f10'; isplitr; · ipureintro; intro y _; exact congrFun hf10 y
      iexact H10
    isplitl [H11]
    · iexists _; isplitr; · ipureintro; intro _; rfl
      iexact H11
    isplitl [H12]
    · iexists f12; isplitr; · ipureintro; intro y hy; exact h12 y (by have : (y 0).val < 2 := (y 0).isLt; omega)
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (k0_pay5 (iblk m c 1 t) (S2 m c) (iblk m c 5 t)); isplitr
  · ipureintro; exact (after_out m c t _ _).mpr ⟨fun _ => rfl, fun hh => absurd hh hc6⟩
  iexact W6

end Cert.Kernel.Hand

end
-- ==== Proof.HandK.BodyE.lean ====
import proofs.«177239_g36112085024795_cont_8to1_b_1394_22_alg».proof.Proof.HandK.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Points 26 … 47: the output's staging buffer is left at output block `t - 23`. -/
theorem bodyE (c : Dev nD) (t : Fin cfg0.N) (Y : (w : Fin cfg0.W) → (cfg0.win w).block.Idx → Elt F (cfg0.win w).elt)
    (hY : ∀ w, (rdat m c).Finds w t (Y w)) (h : 26 ≤ t.val ∧ t.val < 48) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : ¬cond2 (grid0.coords t) := fun hh => absurd ((hcond2 t).mp hh) (by omega)
  have hc3 : ¬cond3 (grid0.coords t) := fun hh => absurd ((hcond3 t).mp hh) (by omega)
  have hc4 : ¬cond4 (grid0.coords t) := fun hh => absurd ((hcond4 t).mp hh) (by omega)
  have hc5 : cond5 (grid0.coords t) := (hcond5 t).mpr (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  iapply (runE c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S2 m c) Set.univ _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [H10]
  · unfold owns; iexists f10; isplitr
    · ipureintro; funext y; exact h10 y (by have : (y 0).val < 10000 := (y 0).isLt; omega)
    iexact H10
  iintro ⟨W0, W1, W2, W3, W4, W5, W6, H10⟩
  isplitl [H9 H10 H11 H12 Hg]
  · isplitl [H9]
    · iexists X9; isplitr; · ipureintro; intro _; exact h9 (by omega)
      iexact H9
    isplitl [H10]
    · unfold owns; icases H10 with ⟨%f10', %hf10, H10⟩
      iexists f10'; isplitr; · ipureintro; intro y _; exact congrFun hf10 y
      iexact H10
    isplitl [H11]
    · iexists X11; isplitr; · ipureintro; intro _; exact h11 (by omega)
      iexact H11
    isplitl [H12]
    · iexists f12; isplitr; · ipureintro; intro y hy; exact h12 y (by have : (y 0).val < 2 := (y 0).isLt; omega)
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (k0_pay5 (iblk m c 1 t) (S2 m c) (iblk m c 5 t)); isplitr
  · ipureintro; exact (after_out m c t _ _).mpr ⟨fun _ => rfl, fun hh => absurd hh hc6⟩
  iexact W6

end Cert.Kernel.Hand

end
-- ==== Proof.HandK.BodyF.lean ====
import proofs.«177239_g36112085024795_cont_8to1_b_1394_22_alg».proof.Proof.HandK.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Points 48, 49: the output's staging buffer is left at output block `t - 48`, from the kept adjacency rows. -/
theorem bodyF (c : Dev nD) (t : Fin cfg0.N) (Y : (w : Fin cfg0.W) → (cfg0.win w).block.Idx → Elt F (cfg0.win w).elt)
    (hY : ∀ w, (rdat m c).Finds w t (Y w)) (h : 48 ≤ t.val) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : ¬cond2 (grid0.coords t) := fun hh => absurd ((hcond2 t).mp hh) (by omega)
  have hc3 : ¬cond3 (grid0.coords t) := fun hh => absurd ((hcond3 t).mp hh) (by omega)
  have hc4 : ¬cond4 (grid0.coords t) := fun hh => absurd ((hcond4 t).mp hh) (by omega)
  have hc5 : ¬cond5 (grid0.coords t) := fun hh => absurd ((hcond5 t).mp hh) (by omega)
  have hc6 : cond6 (grid0.coords t) := (hcond6 t).mpr (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  obtain rfl : X11 = k0_pay4 (S2 m c) := h11 (by omega)
  iapply (runF c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (k0_pay4 (S2 m c)) (CA m c) Set.univ _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [H11]; · iexact H11
  isplitl [H12]
  · unfold owns; iexists f12; isplitr
    · ipureintro; funext y; exact h12 y (by have : (y 0).val < 2 := (y 0).isLt; omega)
    iexact H12
  iintro ⟨W0, W1, W2, W3, W4, W5, W6, H11, H12⟩
  isplitl [H9 H10 H11 H12 Hg]
  · isplitl [H9]
    · iexists X9; isplitr; · ipureintro; intro _; exact h9 (by omega)
      iexact H9
    isplitl [H10]
    · iexists f10; isplitr; · ipureintro; intro y _; exact h10 y (by have : (y 0).val < 10000 := (y 0).isLt; omega)
      iexact H10
    isplitl [H11]
    · iexists _; isplitr; · ipureintro; intro _; rfl
      iexact H11
    isplitl [H12]
    · unfold owns; icases H12 with ⟨%f12', %hf12, H12⟩
      iexists f12'; isplitr; · ipureintro; intro y _; exact congrFun hf12 y
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (k0_pay6 (View.ld (CA m c) (Rect.unit (k0_off3 (grid0.coords t)) S1x400x10000.size (k0_off3_inb (grid0.coords t) hc6))) (k0_pay4 (S2 m c)) (iblk m c 5 t)); isplitr
  · ipureintro; exact (after_out m c t _ _).mpr ⟨fun hh => absurd hh hc5, fun _ => rfl⟩
  iexact W6

end Cert.Kernel.Hand

end
-- ==== Proof.HandK.Run.lean ====
import proofs.«177239_g36112085024795_cont_8to1_b_1394_22_alg».proof.Proof.HandK.BodyA
import proofs.«177239_g36112085024795_cont_8to1_b_1394_22_alg».proof.Proof.HandK.BodyB
import proofs.«177239_g36112085024795_cont_8to1_b_1394_22_alg».proof.Proof.HandK.BodyC
import proofs.«177239_g36112085024795_cont_8to1_b_1394_22_alg».proof.Proof.HandK.BodyD
import proofs.«177239_g36112085024795_cont_8to1_b_1394_22_alg».proof.Proof.HandK.BodyE
import proofs.«177239_g36112085024795_cont_8to1_b_1394_22_alg».proof.Proof.HandK.BodyF
import Idealize.ShloMosaic.Lib.Pipeline.Frame

set_option maxRecDepth 16384

noncomputable section

/-!
# The run

Every point of the grid is one of six kinds; the body obligation at a point is its kind's. The frame run over the
relational proof data then says: every weakly fair execution ends, faulting nowhere, each staged argument array as it
was, and the output array in the relation the write-backs generate.
-/
namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) (Y : (w : Fin cfg0.W) → (cfg0.win w).block.Idx → Elt F (cfg0.win w).elt)
    (hY : ∀ w, (rdat m c).Finds w t (Y w)) : Sound m c t Y := by
  have h50 := N50 t
  by_cases h0 : t.val = 0; · exact bodyA m c t Y hY h0
  by_cases h1 : t.val = 1; · exact bodyB m c t Y hY h1
  by_cases h2 : t.val < 25; · exact bodyC m c t Y hY ⟨by omega, h2⟩
  by_cases h3 : t.val = 25; · exact bodyD m c t Y hY h3
  by_cases h4 : t.val < 48; · exact bodyE m c t Y hY ⟨by omega, h4⟩
  exact bodyF m c t Y hY (by omega)

/-- The library's body obligation over the relational proof data, at every point. -/
theorem body_obligation (c : Dev nD) : (rdat (F := F) m c).BodyObligation (defs₀ (F := F)) Variants.none () Set.univ := fun t Y hY => by
  rw [bigSep_W0, bigSep_W0]
  exact sound_body m c t Y hY

set_option backward.isDefEq.respectTransparency.types false in
/-- The frame run: every weakly fair execution of @main terminates without a fault; each array a window stages ends at
    contents the write-backs may leave, every other unscoped buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m)
    (hout := fun c => hout m c _)

/-- An input window's array ends as the region found it. -/
theorem arr_in (c : Dev nD) (w : Fin cfg0.W) (hw : (cfg0.win w).isOut = false) (G) (h : (rdat m c).ArrAt w cfg0.N G) :
    G = V m c (Pipeline.arrRef spec0 w) := by
  rw [(rdat m c).ArrAt_in w hw] at h
  exact h.trans (A_eq m c w)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 1 rfl _ ((h c).1 1)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c)⟩) (run_main m ρ)

end Cert.Kernel.Hand

end
-- ==== Proof.Hand.Conds.lean ====
import proofs.«177239_g36112085024795_cont_8to1_b_1394_22_alg».proof.Proof.Gen.KernelIdeal.Frame
import proofs.«177239_g36112085024795_cont_8to1_b_1394_22_alg».proof.Proof.Gen.KernelIdeal.Skeleton

set_option maxRecDepth 16384

noncomputable section

/-!
# The grid's fifty points, decided

The kernel walks a grid of 2 × 25 points in row-major order: point `t` has phase `t / 25` and step `t % 25`. Phase 0
computes the hidden layer's projection one block of 400 rows per step; phase 1 computes the output, the 23 blocks
`2 … 24` first (from the streamed adjacency rows), then the blocks `0, 1` (from the adjacency rows kept in scratch).
Here the six branch conditions of the body, the offsets of its three dynamic accesses and the block indices of the
two moving windows are put in closed form over the point's position, each by evaluation at all fifty points.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The six branch conditions of the body, as the body computes them from the grid coordinates. -/
abbrev cond1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
abbrev cond2 (i : grid0.Coords) : Prop := k0_cond2 i = 1#1
abbrev cond3 (i : grid0.Coords) : Prop := k0_cond3 i = 1#1
abbrev cond4 (i : grid0.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1
abbrev cond5 (i : grid0.Coords) : Prop := k0_cond5 i = 1#1
abbrev cond6 (i : grid0.Coords) : Prop := k0_cond6 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val < 2 :=
  (by decide +kernel : ∀ t : Fin grid0.N, cond3 (grid0.coords t) ↔ t.val < 2)
theorem hcond4 : ∀ t : Fin cfg0.N, cond4 (grid0.coords t) ↔ t.val = 25 :=
  (by decide +kernel : ∀ t : Fin grid0.N, cond4 (grid0.coords t) ↔ t.val = 25)
theorem hcond5 : ∀ t : Fin cfg0.N, cond5 (grid0.coords t) ↔ (25 ≤ t.val ∧ t.val < 48) :=
  (by decide +kernel : ∀ t : Fin grid0.N, cond5 (grid0.coords t) ↔ (25 ≤ t.val ∧ t.val < 48))
theorem hcond6 : ∀ t : Fin cfg0.N, cond6 (grid0.coords t) ↔ 48 ≤ t.val :=
  (by decide +kernel : ∀ t : Fin grid0.N, cond6 (grid0.coords t) ↔ 48 ≤ t.val)

/-- Phase 0 stores its 400 projected rows at row `400 · step` of the projection scratch. -/
theorem hoff1 : ∀ t : Fin cfg0.N, k0_off1 (grid0.coords t) = ![400 * (t.val % 25), 0] :=
  (by decide +kernel : ∀ t : Fin grid0.N, k0_off1 (grid0.coords t) = ![400 * (t.val % 25), 0])
/-- The first two steps keep their adjacency rows in slot `step` of the row scratch. -/
theorem hoff2 : ∀ t : Fin cfg0.N, k0_off2 (grid0.coords t) = ![t.val % 25, 0, 0] :=
  (by decide +kernel : ∀ t : Fin grid0.N, k0_off2 (grid0.coords t) = ![t.val % 25, 0, 0])
/-- The last two points read slot `t - 48` of it. -/
theorem hoff3 : ∀ t : Fin cfg0.N, 48 ≤ t.val → k0_off3 (grid0.coords t) = ![t.val - 48, 0, 0] :=
  (by decide +kernel : ∀ t : Fin grid0.N, 48 ≤ t.val → k0_off3 (grid0.coords t) = ![t.val - 48, 0, 0])

/-- The adjacency window's block index: the step in phase 0; in phase 1 the blocks `2 … 24`, then pinned at 24. -/
theorem hidx1 : ∀ t : Fin cfg0.N, (cfg0.win 1).index t = ![if t.val < 25 then t.val else min (t.val - 23) 24, 0] :=
  (by decide +kernel : ∀ t : Fin grid0.N, win0_1.index t = ![if t.val < 25 then t.val else min (t.val - 23) 24, 0])
/-- The output window's block index in phase 1: the blocks `2 … 24`, then `0, 1`. -/
theorem hidx6 : ∀ t : Fin cfg0.N, 25 ≤ t.val → (cfg0.win 6).index t = ![if t.val < 48 then t.val - 23 else t.val - 48, 0] :=
  (by decide +kernel : ∀ t : Fin grid0.N, 25 ≤ t.val → win0_6.index t = ![if t.val < 48 then t.val - 23 else t.val - 48, 0])

/-- One store through the whole-shape rectangle at zero offsets, made last, leaves its payload, whatever was stored before. -/
theorem read_writes_unit_zero {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem hz2 : (![0, 0] : Fin 2 → ℕ) = fun _ => 0 := by funext a; fin_cases a <;> rfl

end Cert.KernelIdeal.Hand

end
-- ==== Proof.Hand.RunA.lean ====
import proofs.«177239_g36112085024795_cont_8to1_b_1394_22_alg».proof.Proof.Hand.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Point 0: the body projects the features (`x · W1`, all 10000 rows) into the first scratch, reads that back for the
    first block's hidden rows, which go to rows `0 … 399` of the projection scratch, and keeps the point's adjacency
    rows in slot 0 of the row scratch. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : cond1 i) (hc2 : cond2 i) (hc3 : cond3 i) (hc4 : ¬cond4 i) (hc5 : ¬cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (f10 : Buf (Elt F) (arg10.view.loc (c : Thread nD τ))) (f12 : Buf (Elt F) (arg12.view.loc (c : Thread nD τ))) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg9 fullShare d)
            ∗ (arg10.view.loc (c : Thread nD τ) ↦[arg10.view.set]{fullShare} f10)
            ∗ (arg12.view.loc (c : Thread nD τ) ↦[arg12.view.set]{fullShare} f12)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare (k0_pay1 x0 w1)
            ∗ (arg10.view.loc (c : Thread nD τ) ↦[arg10.view.set]{fullShare} (arg10.view.writes (Elt F) f10 [⟨Rect.unit (k0_off1 i) S400x64.size (k0_off1_inb i hc2), k0_pay2 a (k0_pay1 x0 w1) b1 w2⟩]))
            ∗ (arg12.view.loc (c : Thread nD τ) ↦[arg12.view.set]{fullShare} (arg12.view.writes (Elt F) f12 [⟨Rect.unit (k0_off2 i) S1x400x10000.size (k0_off2_inb i hc3), k0_pay3 a⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, H10, H12, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2 | exact hc3 | exact hc4 | exact hc5 | exact hc6)
  sl_step
  sl_unfold_words
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists (arg9.view.writes (Elt F) f9 [⟨Rect.unit ![0, 0] S10000x64.size inb_S10000x64_S10000x64_0_0, k0_pay1 x0 w1⟩]); isplitr
    · ipureintro; exact read_writes_unit_zero _ _ hz2 _ _ _
    simp only [View.readAt_eq_ld, harg2.read_unread, harg3.read_unread, harg4.read_unread, harg5.read_unread, harg6.read_unread, harg7.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H9
  isplitl [H10]
  · simp only [View.readAt_eq_ld, harg2.read_unread, harg3.read_unread, harg4.read_unread, harg5.read_unread, harg6.read_unread, harg7.read_unread, View.readCov_unit_zero (S := S10000x64) arg9.view hz2, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H10
  simp only [View.readAt_eq_ld, harg2.read_unread, harg3.read_unread, harg4.read_unread, harg5.read_unread, harg6.read_unread, harg7.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H12

end Cert.KernelIdeal.Hand

end
-- ==== Proof.Hand.RunB.lean ====
import proofs.«177239_g36112085024795_cont_8to1_b_1394_22_alg».proof.Proof.Hand.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Point 1: the second block's hidden rows go to rows `400 … 799` of the projection scratch, and the point's adjacency
    rows are kept in slot 1 of the row scratch. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : cond2 i) (hc3 : cond3 i) (hc4 : ¬cond4 i) (hc5 : ¬cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s1 : Vec F S10000x64 .f32) (f10 : Buf (Elt F) (arg10.view.loc (c : Thread nD τ))) (f12 : Buf (Elt F) (arg12.view.loc (c : Thread nD τ))) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} f10)
            ∗ (arg12.view.loc (c : Thread nD τ) ↦[arg12.view.set]{fullShare} f12)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} (arg10.view.writes (Elt F) f10 [⟨Rect.unit (k0_off1 i) S400x64.size (k0_off1_inb i hc2), k0_pay2 a s1 b1 w2⟩]))
            ∗ (arg12.view.loc (c : Thread nD τ) ↦[arg12.view.set]{fullShare} (arg12.view.writes (Elt F) f12 [⟨Rect.unit (k0_off2 i) S1x400x10000.size (k0_off2_inb i hc3), k0_pay3 a⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, H10, H12, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  isplitl [H10]
  · simp only [View.readAt_eq_ld, harg2.read_unread, harg3.read_unread, harg4.read_unread, harg5.read_unread, harg6.read_unread, harg7.read_unread, harg9.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H10
  simp only [View.readAt_eq_ld, harg2.read_unread, harg3.read_unread, harg4.read_unread, harg5.read_unread, harg6.read_unread, harg7.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H12

end Cert.KernelIdeal.Hand

end
-- ==== Proof.Hand.RunC.lean ====
import proofs.«177239_g36112085024795_cont_8to1_b_1394_22_alg».proof.Proof.Hand.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Points 2 … 24 (phase 0 past the kept rows): the body reads the adjacency block, the feature projection, the first
    bias and the second weights, and stores the 400 projected rows of the hidden layer at the point's rows of the
    projection scratch. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : cond2 i) (hc3 : ¬cond3 i) (hc4 : ¬cond4 i) (hc5 : ¬cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s1 : Vec F S10000x64 .f32) (f10 : Buf (Elt F) (arg10.view.loc (c : Thread nD τ))) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} f10)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg9 fullShare s1
            ∗ (arg10.view.loc (c : Thread nD τ) ↦[arg10.view.set]{fullShare} (arg10.view.writes (Elt F) f10 [⟨Rect.unit (k0_off1 i) S400x64.size (k0_off1_inb i hc2), k0_pay2 a s1 b1 w2⟩]))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, H10, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  simp only [View.readAt_eq_ld, harg2.read_unread, harg3.read_unread, harg4.read_unread, harg5.read_unread, harg6.read_unread, harg7.read_unread, harg9.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H10

end Cert.KernelIdeal.Hand

end
-- ==== Proof.Hand.RunD.lean ====
import proofs.«177239_g36112085024795_cont_8to1_b_1394_22_alg».proof.Proof.Hand.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Point 25 (the first of phase 1): the finished projection is copied, narrowed, into the third scratch, and output
    block 2 is the adjacency block times the projection plus the second bias. -/
theorem runD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : ¬cond2 i) (hc3 : ¬cond3 i) (hc4 : cond4 i) (hc5 : cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s2 : Vec F S10000x64 .f32) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg8 fullShare d)
            ∗ owns (c : Thread nD τ) arg10 fullShare s2
            ∗ (∃ d, owns (c : Thread nD τ) arg11 fullShare d)
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg8 fullShare (k0_pay5 a s2 b2)
            ∗ owns (c : Thread nD τ) arg10 fullShare s2
            ∗ owns (c : Thread nD τ) arg11 fullShare (k0_pay4 s2)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists (arg8.view.writes (Elt F) f8 [⟨Rect.unit ![0, 0] S400x64.size inb_S400x64_S400x64_0_0, k0_pay5 a s2 b2⟩]); isplitr
    · ipureintro; exact read_writes_unit_zero _ _ hz2 _ _ _
    simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H8
  isplitl [H10]
  · iexists _; isplitr; · ipureintro; exact harg10.read_unread _
    iexact H10
  iexists (arg11.view.writes (Elt F) f11 [⟨Rect.unit ![0, 0] S10000x64.size inb_S10000x64_S10000x64_0_0, k0_pay4 s2⟩]); isplitr
  · ipureintro; exact read_writes_unit_zero _ _ hz2 _ _ _
  simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
  iexact H11

end Cert.KernelIdeal.Hand

end
-- ==== Proof.Hand.RunE.lean ====
import proofs.«177239_g36112085024795_cont_8to1_b_1394_22_alg».proof.Proof.Hand.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Points 26 … 47: output block `t - 23` is the streamed adjacency block times the projection plus the second bias. -/
theorem runE (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : ¬cond2 i) (hc3 : ¬cond3 i) (hc4 : ¬cond4 i) (hc5 : cond5 i) (hc6 : ¬cond6 i)
    (x0 : Vec F S10000x128 .f32) (a : Vec F S400x10000 .f32) (w1 : Vec F S128x64 .f32) (b1 : Vec F S1x64 .f32) (w2 : Vec F S64x64 .f32) (b2 : Vec F S1x64 .f32) (s2 : Vec F S10000x64 .f32) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg8 fullShare d)
            ∗ owns (c : Thread nD τ) arg10 fullShare s2
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg8 fullShare (k0_pay5 a s2 b2)
            ∗ owns (c : Thread nD τ) arg10 fullShare s2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg10.eq_unread hf10
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists (arg8.view.writes (Elt F) f8 [⟨Rect.unit ![0, 0] S400x64.size inb_S400x64_S400x64_0_0, k0_pay5 a s2 b2⟩]); isplitr
    · ipureintro; exact read_writes_unit_zero _ _ hz2 _ _ _
    simp only [View.readAt_eq_ld, harg2.read_unread, harg3.read_unread, harg4.read_unread, harg5.read_unread, harg6.read_unread, harg7.read_unread, harg10.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H8
  iexists _; isplitr; · ipureintro; exact harg10.read_unread _
  iexact H10

end Cert.KernelIdeal.Hand

end
-- ==== Proof.Hand.RunF.lean ====
import proofs.«177239_g36112085024795_cont_8to1_b_1394_22_alg».proof.Proof.Hand.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 2000000 in
/-- Points 48, 49: output block `t - 48` is the kept adjacency rows of slot `t - 48` times the narrowed projection plus the
    second bias. -/
theorem runF (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (arg11 : Memref sig .tc .vmem S10000x64 .bf16) (harg11 : arg11.IsWhole) (arg12 : Memref sig .tc .vmem S2x400x10000 .bf16) (harg12 : arg12.IsWhole)
    (hc1 : ¬cond1 i) (hc2 : ¬cond2 i) (hc3 : ¬cond3 i) (hc4 : ¬cond4 i) (hc5 : ¬cond5 i) (hc6 : cond6 i)
    (x0 : Vec F S10000x128 .f32) (a : Vec F S400x10000 .f32) (w1 : Vec F S128x64 .f32) (b1 : Vec F S1x64 .f32) (w2 : Vec F S64x64 .f32) (b2 : Vec F S1x64 .f32) (s2b : Vec F S10000x64 .bf16) (ca : Vec F S2x400x10000 .bf16) (E : Set ℕ) (K : PUnit → sProp 𝕄) :
    iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ (∃ d, owns (c : Thread nD τ) arg8 fullShare d)
            ∗ owns (c : Thread nD τ) arg11 fullShare s2b
            ∗ owns (c : Thread nD τ) arg12 fullShare ca
            ∗ (iprop(owns (c : Thread nD τ) arg2 fullShare x0
            ∗ owns (c : Thread nD τ) arg3 fullShare a
            ∗ owns (c : Thread nD τ) arg4 fullShare w1
            ∗ owns (c : Thread nD τ) arg5 fullShare b1
            ∗ owns (c : Thread nD τ) arg6 fullShare w2
            ∗ owns (c : Thread nD τ) arg7 fullShare b2
            ∗ owns (c : Thread nD τ) arg8 fullShare (k0_pay6 (View.ld ca (Rect.unit (k0_off3 i) S1x400x10000.size (k0_off3_inb i hc6))) s2b b2)
            ∗ owns (c : Thread nD τ) arg11 fullShare s2b
            ∗ owns (c : Thread nD τ) arg12 fullShare ca) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12) K := by
  simp only [cc0__gcn_kernel_eq_skeleton]; unfold cc0__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2 | exact hc3 | exact hc4 | exact hc5 | exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists (arg8.view.writes (Elt F) f8 [⟨Rect.unit ![0, 0] S400x64.size inb_S400x64_S400x64_0_0, k0_pay6 (View.ld ca (Rect.unit (k0_off3 i) S1x400x10000.size (k0_off3_inb i hc6))) s2b b2⟩]); isplitr
    · ipureintro; exact read_writes_unit_zero _ _ hz2 _ _ _
    simp only [View.readAt_eq_ld, harg2.read_unread, harg3.read_unread, harg4.read_unread, harg5.read_unread, harg6.read_unread, harg7.read_unread, harg11.read_unread, harg12.read_unread, View.ld_unit_zero (S := S10000x128) hz2, View.ld_unit_zero (S := S400x10000) hz2, View.ld_unit_zero (S := S128x64) hz2, View.ld_unit_zero (S := S1x64) hz2, View.ld_unit_zero (S := S64x64) hz2, View.ld_unit_zero (S := S10000x64) hz2, View.ld_unit_zero (S := S400x64) hz2]
    iexact H8
  isplitl [H11]
  · iexists _; isplitr; · ipureintro; exact harg11.read_unread _
    iexact H11
  iexists _; isplitr; · ipureintro; exact harg12.read_unread _
  iexact H12

end Cert.KernelIdeal.Hand

end
-- ==== Proof.Hand.Data.lean ====
import proofs.«177239_g36112085024795_cont_8to1_b_1394_22_alg».proof.Proof.Hand.RunA
import proofs.«177239_g36112085024795_cont_8to1_b_1394_22_alg».proof.Proof.Hand.RunB
import proofs.«177239_g36112085024795_cont_8to1_b_1394_22_alg».proof.Proof.Hand.RunC
import proofs.«177239_g36112085024795_cont_8to1_b_1394_22_alg».proof.Proof.Hand.RunD
import proofs.«177239_g36112085024795_cont_8to1_b_1394_22_alg».proof.Proof.Hand.RunE
import proofs.«177239_g36112085024795_cont_8to1_b_1394_22_alg».proof.Proof.Hand.RunF
import Idealize.ShloMosaic.Lib.ValueIdx

set_option maxRecDepth 16384

noncomputable section

/-!
# What the kernel keeps between points, named

The feature projection `s1 = x · W1` (written at point 0), the hidden layer's projection `s2` (row block `t` written at
point `t` of phase 0: `relu(adj[t] · s1 + b1) · W2`), its narrowed copy (written at point 25) and the two kept adjacency
blocks (written at points 0 and 1) live in scratch buffers that the grid's points hand on to one another. They are
named here as functions of the argument arrays' blocks, with the invariant that says, before each point, which part of
each scratch already holds its named contents; and the relation each point leaves between what it finds and what it
leaves in the seven staged windows.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The grid's point at position `n`. -/
def pt (n : ℕ) : Fin cfg0.N := ⟨n % 50, lt_of_lt_of_eq (Nat.mod_lt _ (by omega)) N_0.symm⟩

theorem N50 (t : Fin cfg0.N) : t.val < 50 := lt_of_lt_of_eq t.isLt N_0

theorem pt_of (t : Fin cfg0.N) {n : ℕ} (h : n = t.val) : pt n = t :=
  Fin.ext (by show n % 50 = t.val; have := N50 t; omega)

/-- The feature projection `x · W1`, from the blocks the first point is handed. -/
def S1 (c : Dev nD) : Vec F S10000x64 .f32 := k0_pay1 (iblk m c 0 (pt 0)) (iblk m c 2 (pt 0))

/-- The 400 rows of the hidden layer's projection that point `t` of phase 0 computes. -/
def S2blk (c : Dev nD) (t : Fin cfg0.N) : Vec F S400x64 .f32 := k0_pay2 (iblk m c 1 t) (S1 m c) (iblk m c 3 t) (iblk m c 4 t)

/-- The hidden layer's projection, all 10000 rows: row `r` is row `r % 400` of the block point `r / 400` computes. -/
def S2 (c : Dev nD) : Vec F S10000x64 .f32 := fun y =>
  S2blk m c (pt ((y 0).val / 400))
    (ix2 ⟨(y 0).val % 400, Nat.mod_lt _ (by omega)⟩ ⟨(y 1).val, (y 1).isLt⟩)

/-- The kept adjacency rows: slot `s` holds the block point `s` was handed, narrowed. -/
def CA (c : Dev nD) : Vec F S2x400x10000 .bf16 := fun y =>
  k0_pay3 (iblk m c 1 (pt (y 0).val))
    (ix3 ⟨0, Nat.one_pos⟩ ⟨(y 1).val, (y 1).isLt⟩ ⟨(y 2).val, (y 2).isLt⟩)

/-- The four scratch buffers as whole memrefs. -/
abbrev sc0 : Memref sig .tc .vmem S10000x64 .f32 := Memref.whole cc0_scratch0
abbrev sc1 : Memref sig .tc .vmem S10000x64 .f32 := Memref.whole cc0_scratch1
abbrev sc2 : Memref sig .tc .vmem S10000x64 .bf16 := Memref.whole cc0_scratch2
abbrev sc3 : Memref sig .tc .vmem S2x400x10000 .bf16 := Memref.whole cc0_scratch3

/-- What is known of each scratch before the point at position `n`. -/
def P9 (c : Dev nD) (n : ℕ) (X : Vec F S10000x64 .f32) : Prop := 1 ≤ n → X = S1 m c
def P10 (c : Dev nD) (n : ℕ) (X : Vec F S10000x64 .f32) : Prop := ∀ y : S10000x64.Idx, (y 0).val < 400 * n → X y = S2 m c y
def P11 (c : Dev nD) (n : ℕ) (X : Vec F S10000x64 .bf16) : Prop := 26 ≤ n → X = k0_pay4 (S2 m c)
def P12 (c : Dev nD) (n : ℕ) (X : Vec F S2x400x10000 .bf16) : Prop := ∀ y : S2x400x10000.Idx, (y 0).val < n → X y = CA m c y

/-- The invariant before the point at position `n`: each scratch at contents of which that much is known, and the
    generator register at some state. -/
def Phi (c : Dev nD) (n : ℕ) : sProp 𝕄 :=
  iprop((∃ X, ⌜P9 m c n X⌝ ∗ owns (c : Thread nD τ) sc0 fullShare X)
    ∗ (∃ f, ⌜P10 m c n (sc1.view.read (Elt F) f)⌝ ∗ (sc1.view.loc (c : Thread nD τ) ↦[sc1.view.set]{fullShare} f))
    ∗ (∃ X, ⌜P11 m c n X⌝ ∗ owns (c : Thread nD τ) sc2 fullShare X)
    ∗ (∃ f, ⌜P12 m c n (sc3.view.read (Elt F) f)⌝ ∗ (sc3.view.loc (c : Thread nD τ) ↦[sc3.view.set]{fullShare} f))
    ∗ (∃ r, prngReg c r))

/-- The class invariant with the scratch operands as whole memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

theorem hin (c : Dev nD) : Pipeline.ΦA spec0 c ⊢ Phi m c 0 := by
  rw [PhiA_eq]; unfold Phi
  iintro ⟨⟨⟨%d0, H0⟩, ⟨%d1, H1⟩, ⟨%d2, H2⟩, ⟨%d3, H3⟩⟩, Hg⟩
  isplitl [H0]
  · iexists d0; isplitr; · ipureintro; intro h; omega
    iexact H0
  isplitl [H1]
  · unfold owns; icases H1 with ⟨%f1, -, H1⟩
    iexists f1; isplitr; · ipureintro; intro y h; omega
    iexact H1
  isplitl [H2]
  · iexists d2; isplitr; · ipureintro; intro h; omega
    iexact H2
  isplitl [H3]
  · unfold owns; icases H3 with ⟨%f3, -, H3⟩
    iexists f3; isplitr; · ipureintro; intro y h; omega
    iexact H3
  iexact Hg

theorem hout (c : Dev nD) (n : ℕ) : Phi m c n ⊢ Pipeline.ΦA spec0 c := by
  rw [PhiA_eq]; unfold Phi
  iintro ⟨⟨%d0, -, H0⟩, ⟨%f1, -, H1⟩, ⟨%d2, -, H2⟩, ⟨%f3, -, H3⟩, Hg⟩
  isplitr [Hg]
  · isplitl [H0]; · iexists d0; iexact H0
    isplitl [H1]
    · unfold owns; iexists _; iexists f1; isplitr; · ipureintro; rfl
      iexact H1
    isplitl [H2]; · iexists d2; iexact H2
    unfold owns; iexists _; iexists f3; isplitr; · ipureintro; rfl
    iexact H3
  iexact Hg

/-- The proof data, relational: the arrays as the region finds them; an input's staging buffer is left as found; the
    output's staging buffer, at a point of phase 1, is left at the point's output block — the streamed adjacency block
    times the projection plus the bias at points 25 … 47, the kept rows times the narrowed projection plus the bias at
    points 48, 49 — and at a point of phase 0 at anything (the body stores nothing there, and every block written back
    then is written again in phase 1). -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => (cond5 (grid0.coords t) → X = k0_pay5 (iblk m c 1 t) (S2 m c) (iblk m c 5 t))
        ∧ (∀ h6 : cond6 (grid0.coords t), X = k0_pay6 (View.ld (CA m c) (Rect.unit (k0_off3 (grid0.coords t)) S1x400x10000.size (k0_off3_inb (grid0.coords t) h6))) (k0_pay4 (S2 m c)) (iblk m c 5 t))
  Φ t := Phi m c t.val
  q _ := fullShare
  owed _ := 0

theorem A_eq (c : Dev nD) (w : Fin cfg0.W) : (rdat m c).A w = V m c (Pipeline.arrRef spec0 w) := by
  dsimp only [rdat]

theorem after_in (c : Dev nD) (w : Fin cfg0.W) (hw : w.val < 6) (t : Fin cfg0.N) (Y X) : (rdat m c).after w t Y X ↔ X = Y := by
  match w, hw with
  | ⟨0, _⟩, _ => exact Iff.rfl
  | ⟨1, _⟩, _ => exact Iff.rfl
  | ⟨2, _⟩, _ => exact Iff.rfl
  | ⟨3, _⟩, _ => exact Iff.rfl
  | ⟨4, _⟩, _ => exact Iff.rfl
  | ⟨5, _⟩, _ => exact Iff.rfl

theorem after_out (c : Dev nD) (t : Fin cfg0.N) (Y X : Vec F S400x64 .f32) :
    (rdat m c).after 6 t Y X ↔ ((cond5 (grid0.coords t) → X = k0_pay5 (iblk m c 1 t) (S2 m c) (iblk m c 5 t))
        ∧ (∀ h6 : cond6 (grid0.coords t), X = k0_pay6 (View.ld (CA m c) (Rect.unit (k0_off3 (grid0.coords t)) S1x400x10000.size (k0_off3_inb (grid0.coords t) h6))) (k0_pay4 (S2 m c)) (iblk m c 5 t))) :=
  Iff.rfl

end Cert.KernelIdeal.Hand

end
-- ==== Proof.Hand.Steps.lean ====
import proofs.«177239_g36112085024795_cont_8to1_b_1394_22_alg».proof.Proof.Hand.Data
import Idealize.ShloMosaic.Lib.WritesUnit

set_option maxRecDepth 16384

noncomputable section

/-!
# One point's store into a scratch it fills piece by piece

The projection scratch gains the rows `400 t … 400 t + 399` at point `t` of phase 0 and keeps the rows below; the row
scratch gains slot `t` at points 0 and 1 and keeps the slot below.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- After point `t` of phase 0 the projection scratch's rows below `400 (t + 1)` are the projection's: those below `400 t`
    as before, the block just stored by the definition of the projection's row block `t`. -/
theorem P10_step (c : Dev nD) (t : Fin cfg0.N) (ht : t.val < 25) (hc2 : cond2 (grid0.coords t))
    (f : Buf (Elt F) (sc1.view.loc (c : Thread nD τ))) (h : P10 m c t.val (sc1.view.read (Elt F) f)) :
    P10 m c (t.val + 1) (sc1.view.read (Elt F) (sc1.view.writes (Elt F) f
      [⟨Rect.unit (k0_off1 (grid0.coords t)) S400x64.size (k0_off1_inb (grid0.coords t) hc2), S2blk m c t⟩])) := by
  intro y hy
  have hoff := hoff1 t
  have hmod : t.val % 25 = t.val := Nat.mod_eq_of_lt ht
  by_cases hlt : (y 0).val < 400 * t.val
  · rw [View.read_writes_cons_unit_of_not_mem _ _ _ _ _ y hoff (0 : Fin 2)
      (Or.inl (by show (y 0).val < 400 * (t.val % 25); rw [hmod]; exact hlt))]
    exact h y hlt
  · have hge : 400 * t.val ≤ (y 0).val := by omega
    have hx0 : (y 0).val - 400 * t.val < 400 := by omega
    have key := View.read_writes_cons_unit_of_mem sc1.view f (k0_off1_inb (grid0.coords t) hc2) (S2blk m c t) [] y
      (ix2 (⟨(y 0).val - 400 * t.val, hx0⟩ : Fin 400) (⟨(y 1).val, (y 1).isLt⟩ : Fin 64)) hoff
      (Fin.forall_fin_two.mpr ⟨by show (y 0).val = 400 * (t.val % 25) + ((y 0).val - 400 * t.val); rw [hmod]; omega,
        by show (y 1).val = 0 + (y 1).val; omega⟩)
    refine key.trans ?_
    unfold S2
    rw [pt_of t (show (y 0).val / 400 = t.val by omega)]
    congr 1
    funext a
    match a with
    | ⟨0, _⟩ => exact Fin.ext (by show (y 0).val - 400 * t.val = (y 0).val % 400; omega)
    | ⟨1, _⟩ => rfl

/-- After point `t` (0 or 1) the row scratch's slots up to `t` hold the kept rows. -/
theorem P12_step (c : Dev nD) (t : Fin cfg0.N) (ht : t.val < 2) (hc3 : cond3 (grid0.coords t))
    (f : Buf (Elt F) (sc3.view.loc (c : Thread nD τ))) (h : P12 m c t.val (sc3.view.read (Elt F) f)) :
    P12 m c (t.val + 1) (sc3.view.read (Elt F) (sc3.view.writes (Elt F) f
      [⟨Rect.unit (k0_off2 (grid0.coords t)) S1x400x10000.size (k0_off2_inb (grid0.coords t) hc3), k0_pay3 (iblk m c 1 t)⟩])) := by
  intro y hy
  have hoff := hoff2 t
  have hmod : t.val % 25 = t.val := Nat.mod_eq_of_lt (by omega)
  by_cases hlt : (y 0).val < t.val
  · rw [View.read_writes_cons_unit_of_not_mem _ _ _ _ _ y hoff (0 : Fin 3)
      (Or.inl (by show (y 0).val < t.val % 25; rw [hmod]; exact hlt))]
    exact h y hlt
  · have hge : (y 0).val = t.val := by omega
    have key := View.read_writes_cons_unit_of_mem sc3.view f (k0_off2_inb (grid0.coords t) hc3) (k0_pay3 (iblk m c 1 t)) [] y
      (ix3 (⟨0, Nat.one_pos⟩ : Fin 1) (⟨(y 1).val, (y 1).isLt⟩ : Fin 400) (⟨(y 2).val, (y 2).isLt⟩ : Fin 10000)) hoff
      (by
        intro a
        match a with
        | ⟨0, _⟩ => show (y 0).val = t.val % 25 + 0; omega
        | ⟨1, _⟩ => show (y 1).val = 0 + (y 1).val; omega
        | ⟨2, _⟩ => show (y 2).val = 0 + (y 2).val; omega)
    refine key.trans ?_
    unfold CA
    rw [pt_of t hge]

end Cert.KernelIdeal.Hand

end
-- ==== Proof.Hand.BodyCommon.lean ====
import proofs.«177239_g36112085024795_cont_8to1_b_1394_22_alg».proof.Proof.Hand.Steps
import Idealize.ShloMosaic.Lib.Pipeline.FrameBody

set_option maxRecDepth 16384

noncomputable section

/-!
# The body obligation's two sides, and what an input's staging buffer holds

An input window's staging buffer holds the window's block at every point, fetched there or not: the body leaves it as
found, and an unfetched window's block index has not moved.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

theorem finds_0 (c : Dev nD) (t : Fin cfg0.N) (Y) (h : (rdat m c).Finds 0 t Y) : Y = iblk m c 0 t := by
  obtain ⟨d, hd⟩ := RDat.finds_in_eq_fetched (rdat m c) 0 rfl (fun _ _ _ => rfl) (fun _ _ _ h => h) t Y h
  rw [hd]; unfold RDat.fetched RDat.blockOf iblk; rw [A_eq]; try rfl

theorem finds_1 (c : Dev nD) (t : Fin cfg0.N) (Y) (h : (rdat m c).Finds 1 t Y) : Y = iblk m c 1 t := by
  obtain ⟨d, hd⟩ := RDat.finds_in_eq_fetched (rdat m c) 1 rfl (fun _ _ _ => rfl) (fun _ _ _ h => h) t Y h
  rw [hd]; unfold RDat.fetched RDat.blockOf iblk; rw [A_eq]; try rfl

theorem finds_2 (c : Dev nD) (t : Fin cfg0.N) (Y) (h : (rdat m c).Finds 2 t Y) : Y = iblk m c 2 t := by
  obtain ⟨d, hd⟩ := RDat.finds_in_eq_fetched (rdat m c) 2 rfl (fun _ _ _ => rfl) (fun _ _ _ h => h) t Y h
  rw [hd]; unfold RDat.fetched RDat.blockOf iblk; rw [A_eq]; try rfl

theorem finds_3 (c : Dev nD) (t : Fin cfg0.N) (Y) (h : (rdat m c).Finds 3 t Y) : Y = iblk m c 3 t := by
  obtain ⟨d, hd⟩ := RDat.finds_in_eq_fetched (rdat m c) 3 rfl (fun _ _ _ => rfl) (fun _ _ _ h => h) t Y h
  rw [hd]; unfold RDat.fetched RDat.blockOf iblk; rw [A_eq]; try rfl

theorem finds_4 (c : Dev nD) (t : Fin cfg0.N) (Y) (h : (rdat m c).Finds 4 t Y) : Y = iblk m c 4 t := by
  obtain ⟨d, hd⟩ := RDat.finds_in_eq_fetched (rdat m c) 4 rfl (fun _ _ _ => rfl) (fun _ _ _ h => h) t Y h
  rw [hd]; unfold RDat.fetched RDat.blockOf iblk; rw [A_eq]; try rfl

theorem finds_5 (c : Dev nD) (t : Fin cfg0.N) (Y) (h : (rdat m c).Finds 5 t Y) : Y = iblk m c 5 t := by
  obtain ⟨d, hd⟩ := RDat.finds_in_eq_fetched (rdat m c) 5 rfl (fun _ _ _ => rfl) (fun _ _ _ h => h) t Y h
  rw [hd]; unfold RDat.fetched RDat.blockOf iblk; rw [A_eq]; try rfl

/-- What the body is called with at point `t`, the windows' buffers at contents `Y`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6))

/-- What it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (win0_0.stage (cfg0.slots t 0)) fullShare X)
    ∗ (∃ X, ⌜(rdat m c).after 1 t (Y 1) X⌝ ∗ owns (c : Thread nD τ) (win0_1.stage (cfg0.slots t 1)) fullShare X)
    ∗ (∃ X, ⌜(rdat m c).after 2 t (Y 2) X⌝ ∗ owns (c : Thread nD τ) (win0_2.stage (cfg0.slots t 2)) fullShare X)
    ∗ (∃ X, ⌜(rdat m c).after 3 t (Y 3) X⌝ ∗ owns (c : Thread nD τ) (win0_3.stage (cfg0.slots t 3)) fullShare X)
    ∗ (∃ X, ⌜(rdat m c).after 4 t (Y 4) X⌝ ∗ owns (c : Thread nD τ) (win0_4.stage (cfg0.slots t 4)) fullShare X)
    ∗ (∃ X, ⌜(rdat m c).after 5 t (Y 5) X⌝ ∗ owns (c : Thread nD τ) (win0_5.stage (cfg0.slots t 5)) fullShare X)
    ∗ (∃ X, ⌜(rdat m c).after 6 t (Y 6) X⌝ ∗ owns (c : Thread nD τ) (win0_6.stage (cfg0.slots t 6)) fullShare X))

/-- The shape every point's proof has. -/
abbrev Sound (c : Dev nD) (t : Fin cfg0.N) (Y : (w : Fin cfg0.W) → (cfg0.win w).block.Idx → Elt F (cfg0.win w).elt) : Prop :=
  bodyPre m c t Y ⊢ wp frame (wpE (defs₀ (F := F)) Variants.none c none) Set.univ (bodyAt0 t) (fun _ => bodyPost m c t Y)

end Cert.KernelIdeal.Hand

end
-- ==== Proof.Hand.BodyA.lean ====
import proofs.«177239_g36112085024795_cont_8to1_b_1394_22_alg».proof.Proof.Hand.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Point 0: the first scratch gains the feature projection, the projection scratch its first 400 rows, the row scratch
    its slot 0. -/
theorem bodyA (c : Dev nD) (t : Fin cfg0.N) (Y : (w : Fin cfg0.W) → (cfg0.win w).block.Idx → Elt F (cfg0.win w).elt)
    (hY : ∀ w, (rdat m c).Finds w t (Y w)) (h : t.val = 0) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : cond1 (grid0.coords t) := (hcond1 t).mpr (by omega)
  have hc2 : cond2 (grid0.coords t) := (hcond2 t).mpr (by omega)
  have hc3 : cond3 (grid0.coords t) := (hcond3 t).mpr (by omega)
  have hc4 : ¬cond4 (grid0.coords t) := fun hh => absurd ((hcond4 t).mp hh) (by omega)
  have hc5 : ¬cond5 (grid0.coords t) := fun hh => absurd ((hcond5 t).mp hh) (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  have hS1 : k0_pay1 (iblk m c 0 t) (iblk m c 2 t) = S1 m c := by
    unfold S1; rw [pt_of t (show 0 = t.val from h.symm)]
  iapply (runA c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) f10 f12 Set.univ _)
  isplitl [W0]; · iexact W0
  isplitl [W1]; · iexact W1
  isplitl [W2]; · iexact W2
  isplitl [W3]; · iexact W3
  isplitl [W4]; · iexact W4
  isplitl [W5]; · iexact W5
  isplitl [H9]; · iexists X9; iexact H9
  isplitl [H10]; · iexact H10
  isplitl [H12]; · iexact H12
  iintro ⟨W0, W1, W2, W3, W4, W5, H9, H10, H12⟩
  rw [hS1]
  isplitl [H9 H10 H11 H12 Hg]
  · isplitl [H9]
    · iexists _; isplitr; · ipureintro; intro _; rfl
      iexact H9
    isplitl [H10]
    · iexists _; isplitr
      · ipureintro; exact P10_step m c t (by omega) hc2 f10 h10
      iexact H10
    isplitl [H11]
    · iexists X11; isplitr; · ipureintro; intro hh; omega
      iexact H11
    isplitl [H12]
    · iexists _; isplitr
      · ipureintro; exact P12_step m c t (by omega) hc3 f12 h12
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (Y 6); isplitr
  · ipureintro; exact (after_out m c t _ _).mpr ⟨fun hh => absurd hh hc5, fun hh => absurd hh hc6⟩
  iexact W6

end Cert.KernelIdeal.Hand

end
-- ==== Proof.Hand.BodyB.lean ====
import proofs.«177239_g36112085024795_cont_8to1_b_1394_22_alg».proof.Proof.Hand.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Point 1: the projection scratch gains rows `400 … 799`, the row scratch its slot 1. -/
theorem bodyB (c : Dev nD) (t : Fin cfg0.N) (Y : (w : Fin cfg0.W) → (cfg0.win w).block.Idx → Elt F (cfg0.win w).elt)
    (hY : ∀ w, (rdat m c).Finds w t (Y w)) (h : t.val = 1) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : cond2 (grid0.coords t) := (hcond2 t).mpr (by omega)
  have hc3 : cond3 (grid0.coords t) := (hcond3 t).mpr (by omega)
  have hc4 : ¬cond4 (grid0.coords t) := fun hh => absurd ((hcond4 t).mp hh) (by omega)
  have hc5 : ¬cond5 (grid0.coords t) := fun hh => absurd ((hcond5 t).mp hh) (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  obtain rfl : X9 = S1 m c := h9 (by omega)
  iapply (runB c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S1 m c) f10 f12 Set.univ _)
  isplitl [W0]; · iexact W0
  isplitl [W1]; · iexact W1
  isplitl [W2]; · iexact W2
  isplitl [W3]; · iexact W3
  isplitl [W4]; · iexact W4
  isplitl [W5]; · iexact W5
  isplitl [H9]; · iexact H9
  isplitl [H10]; · iexact H10
  isplitl [H12]; · iexact H12
  iintro ⟨W0, W1, W2, W3, W4, W5, H9, H10, H12⟩
  isplitl [H9 H10 H11 H12 Hg]
  · isplitl [H9]
    · iexists _; isplitr; · ipureintro; intro _; rfl
      iexact H9
    isplitl [H10]
    · iexists _; isplitr
      · ipureintro; exact P10_step m c t (by omega) hc2 f10 h10
      iexact H10
    isplitl [H11]
    · iexists X11; isplitr; · ipureintro; intro hh; omega
      iexact H11
    isplitl [H12]
    · iexists _; isplitr
      · ipureintro; exact P12_step m c t (by omega) hc3 f12 h12
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (Y 6); isplitr
  · ipureintro; exact (after_out m c t _ _).mpr ⟨fun hh => absurd hh hc5, fun hh => absurd hh hc6⟩
  iexact W6

end Cert.KernelIdeal.Hand

end
-- ==== Proof.Hand.BodyC.lean ====
import proofs.«177239_g36112085024795_cont_8to1_b_1394_22_alg».proof.Proof.Hand.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Points 2 … 24: the projection scratch gains the point's 400 rows; everything else is handed on as found. -/
theorem bodyC (c : Dev nD) (t : Fin cfg0.N) (Y : (w : Fin cfg0.W) → (cfg0.win w).block.Idx → Elt F (cfg0.win w).elt)
    (hY : ∀ w, (rdat m c).Finds w t (Y w)) (h : 2 ≤ t.val ∧ t.val < 25) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : cond2 (grid0.coords t) := (hcond2 t).mpr (by omega)
  have hc3 : ¬cond3 (grid0.coords t) := fun hh => absurd ((hcond3 t).mp hh) (by omega)
  have hc4 : ¬cond4 (grid0.coords t) := fun hh => absurd ((hcond4 t).mp hh) (by omega)
  have hc5 : ¬cond5 (grid0.coords t) := fun hh => absurd ((hcond5 t).mp hh) (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  obtain rfl : X9 = S1 m c := h9 (by omega)
  iapply (runC c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S1 m c) f10 Set.univ _)
  isplitl [W0]; · iexact W0
  isplitl [W1]; · iexact W1
  isplitl [W2]; · iexact W2
  isplitl [W3]; · iexact W3
  isplitl [W4]; · iexact W4
  isplitl [W5]; · iexact W5
  isplitl [H9]; · iexact H9
  isplitl [H10]; · iexact H10
  iintro ⟨W0, W1, W2, W3, W4, W5, H9, H10⟩
  isplitl [H9 H10 H11 H12 Hg]
  · isplitl [H9]
    · iexists _; isplitr; · ipureintro; intro _; rfl
      iexact H9
    isplitl [H10]
    · iexists _; isplitr
      · ipureintro; exact P10_step m c t (by omega) hc2 f10 h10
      iexact H10
    isplitl [H11]
    · iexists X11; isplitr; · ipureintro; intro hh; omega
      iexact H11
    isplitl [H12]
    · iexists f12; isplitr; · ipureintro; intro y hy; exact h12 y (by have : (y 0).val < 2 := (y 0).isLt; omega)
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (Y 6); isplitr
  · ipureintro; exact (after_out m c t _ _).mpr ⟨fun hh => absurd hh hc5, fun hh => absurd hh hc6⟩
  iexact W6

end Cert.KernelIdeal.Hand

end
-- ==== Proof.Hand.BodyD.lean ====
import proofs.«177239_g36112085024795_cont_8to1_b_1394_22_alg».proof.Proof.Hand.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Point 25: the third scratch gains the narrowed projection; the output's staging buffer is left at output block 2. -/
theorem bodyD (c : Dev nD) (t : Fin cfg0.N) (Y : (w : Fin cfg0.W) → (cfg0.win w).block.Idx → Elt F (cfg0.win w).elt)
    (hY : ∀ w, (rdat m c).Finds w t (Y w)) (h : t.val = 25) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : ¬cond2 (grid0.coords t) := fun hh => absurd ((hcond2 t).mp hh) (by omega)
  have hc3 : ¬cond3 (grid0.coords t) := fun hh => absurd ((hcond3 t).mp hh) (by omega)
  have hc4 : cond4 (grid0.coords t) := (hcond4 t).mpr (by omega)
  have hc5 : cond5 (grid0.coords t) := (hcond5 t).mpr (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  iapply (runD c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S2 m c) Set.univ _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [H10]
  · unfold owns; iexists f10; isplitr
    · ipureintro; funext y; exact h10 y (by have : (y 0).val < 10000 := (y 0).isLt; omega)
    iexact H10
  isplitl [H11]; · iexists X11; iexact H11
  iintro ⟨W0, W1, W2, W3, W4, W5, W6, H10, H11⟩
  isplitl [H9 H10 H11 H12 Hg]
  · isplitl [H9]
    · iexists X9; isplitr; · ipureintro; intro _; exact h9 (by omega)
      iexact H9
    isplitl [H10]
    · unfold owns; icases H10 with ⟨%f10', %hf10, H10⟩
      iexists f10'; isplitr; · ipureintro; intro y _; exact congrFun hf10 y
      iexact H10
    isplitl [H11]
    · iexists _; isplitr; · ipureintro; intro _; rfl
      iexact H11
    isplitl [H12]
    · iexists f12; isplitr; · ipureintro; intro y hy; exact h12 y (by have : (y 0).val < 2 := (y 0).isLt; omega)
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (k0_pay5 (iblk m c 1 t) (S2 m c) (iblk m c 5 t)); isplitr
  · ipureintro; exact (after_out m c t _ _).mpr ⟨fun _ => rfl, fun hh => absurd hh hc6⟩
  iexact W6

end Cert.KernelIdeal.Hand

end
-- ==== Proof.Hand.BodyE.lean ====
import proofs.«177239_g36112085024795_cont_8to1_b_1394_22_alg».proof.Proof.Hand.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Points 26 … 47: the output's staging buffer is left at output block `t - 23`. -/
theorem bodyE (c : Dev nD) (t : Fin cfg0.N) (Y : (w : Fin cfg0.W) → (cfg0.win w).block.Idx → Elt F (cfg0.win w).elt)
    (hY : ∀ w, (rdat m c).Finds w t (Y w)) (h : 26 ≤ t.val ∧ t.val < 48) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : ¬cond2 (grid0.coords t) := fun hh => absurd ((hcond2 t).mp hh) (by omega)
  have hc3 : ¬cond3 (grid0.coords t) := fun hh => absurd ((hcond3 t).mp hh) (by omega)
  have hc4 : ¬cond4 (grid0.coords t) := fun hh => absurd ((hcond4 t).mp hh) (by omega)
  have hc5 : cond5 (grid0.coords t) := (hcond5 t).mpr (by omega)
  have hc6 : ¬cond6 (grid0.coords t) := fun hh => absurd ((hcond6 t).mp hh) (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  iapply (runE c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (S2 m c) Set.univ _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [H10]
  · unfold owns; iexists f10; isplitr
    · ipureintro; funext y; exact h10 y (by have : (y 0).val < 10000 := (y 0).isLt; omega)
    iexact H10
  iintro ⟨W0, W1, W2, W3, W4, W5, W6, H10⟩
  isplitl [H9 H10 H11 H12 Hg]
  · isplitl [H9]
    · iexists X9; isplitr; · ipureintro; intro _; exact h9 (by omega)
      iexact H9
    isplitl [H10]
    · unfold owns; icases H10 with ⟨%f10', %hf10, H10⟩
      iexists f10'; isplitr; · ipureintro; intro y _; exact congrFun hf10 y
      iexact H10
    isplitl [H11]
    · iexists X11; isplitr; · ipureintro; intro _; exact h11 (by omega)
      iexact H11
    isplitl [H12]
    · iexists f12; isplitr; · ipureintro; intro y hy; exact h12 y (by have : (y 0).val < 2 := (y 0).isLt; omega)
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (k0_pay5 (iblk m c 1 t) (S2 m c) (iblk m c 5 t)); isplitr
  · ipureintro; exact (after_out m c t _ _).mpr ⟨fun _ => rfl, fun hh => absurd hh hc6⟩
  iexact W6

end Cert.KernelIdeal.Hand

end
-- ==== Proof.Hand.BodyF.lean ====
import proofs.«177239_g36112085024795_cont_8to1_b_1394_22_alg».proof.Proof.Hand.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- Points 48, 49: the output's staging buffer is left at output block `t - 48`, from the kept adjacency rows. -/
theorem bodyF (c : Dev nD) (t : Fin cfg0.N) (Y : (w : Fin cfg0.W) → (cfg0.win w).block.Idx → Elt F (cfg0.win w).elt)
    (hY : ∀ w, (rdat m c).Finds w t (Y w)) (h : 48 ≤ t.val) : Sound m c t Y := by
  have h50 := N50 t
  have e0 := finds_0 m c t (Y 0) (hY 0); have e1 := finds_1 m c t (Y 1) (hY 1); have e2 := finds_2 m c t (Y 2) (hY 2)
  have e3 := finds_3 m c t (Y 3) (hY 3); have e4 := finds_4 m c t (Y 4) (hY 4); have e5 := finds_5 m c t (Y 5) (hY 5)
  have hc1 : ¬cond1 (grid0.coords t) := fun hh => absurd ((hcond1 t).mp hh) (by omega)
  have hc2 : ¬cond2 (grid0.coords t) := fun hh => absurd ((hcond2 t).mp hh) (by omega)
  have hc3 : ¬cond3 (grid0.coords t) := fun hh => absurd ((hcond3 t).mp hh) (by omega)
  have hc4 : ¬cond4 (grid0.coords t) := fun hh => absurd ((hcond4 t).mp hh) (by omega)
  have hc5 : ¬cond5 (grid0.coords t) := fun hh => absurd ((hcond5 t).mp hh) (by omega)
  have hc6 : cond6 (grid0.coords t) := (hcond6 t).mpr (by omega)
  unfold Sound bodyPre bodyPost bodyAt0
  rw [e0, e1, e2, e3, e4, e5]
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨%X9, %h9, H9⟩, ⟨%f10, %h10, H10⟩, ⟨%X11, %h11, H11⟩, ⟨%f12, %h12, H12⟩, Hg⟩, Ho, W0, W1, W2, W3, W4, W5, W6⟩
  obtain rfl : X11 = k0_pay4 (S2 m c) := h11 (by omega)
  iapply (runF c (grid0.coords t) _ _ _ _ _ _ _ _ _ _ _ _ _ _ _ _ _ _ _ _ _ _ hc1 hc2 hc3 hc4 hc5 hc6 (iblk m c 0 t) (iblk m c 1 t) (iblk m c 2 t) (iblk m c 3 t) (iblk m c 4 t) (iblk m c 5 t) (k0_pay4 (S2 m c)) (CA m c) Set.univ _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [H11]; · iexact H11
  isplitl [H12]
  · unfold owns; iexists f12; isplitr
    · ipureintro; funext y; exact h12 y (by have : (y 0).val < 2 := (y 0).isLt; omega)
    iexact H12
  iintro ⟨W0, W1, W2, W3, W4, W5, W6, H11, H12⟩
  isplitl [H9 H10 H11 H12 Hg]
  · isplitl [H9]
    · iexists X9; isplitr; · ipureintro; intro _; exact h9 (by omega)
      iexact H9
    isplitl [H10]
    · iexists f10; isplitr; · ipureintro; intro y _; exact h10 y (by have : (y 0).val < 10000 := (y 0).isLt; omega)
      iexact H10
    isplitl [H11]
    · iexists _; isplitr; · ipureintro; intro _; rfl
      iexact H11
    isplitl [H12]
    · unfold owns; icases H12 with ⟨%f12', %hf12, H12⟩
      iexists f12'; isplitr; · ipureintro; intro y _; exact congrFun hf12 y
      iexact H12
    iexact Hg
  isplitl [Ho]; · iexact Ho
  isplitl [W0]
  · iexists _; isplitr; · ipureintro; exact (after_in m c 0 (by decide) t _ _).mpr rfl
    iexact W0
  isplitl [W1]
  · iexists _; isplitr; · ipureintro; exact (after_in m c 1 (by decide) t _ _).mpr rfl
    iexact W1
  isplitl [W2]
  · iexists _; isplitr; · ipureintro; exact (after_in m c 2 (by decide) t _ _).mpr rfl
    iexact W2
  isplitl [W3]
  · iexists _; isplitr; · ipureintro; exact (after_in m c 3 (by decide) t _ _).mpr rfl
    iexact W3
  isplitl [W4]
  · iexists _; isplitr; · ipureintro; exact (after_in m c 4 (by decide) t _ _).mpr rfl
    iexact W4
  isplitl [W5]
  · iexists _; isplitr; · ipureintro; exact (after_in m c 5 (by decide) t _ _).mpr rfl
    iexact W5
  iexists (k0_pay6 (View.ld (CA m c) (Rect.unit (k0_off3 (grid0.coords t)) S1x400x10000.size (k0_off3_inb (grid0.coords t) hc6))) (k0_pay4 (S2 m c)) (iblk m c 5 t)); isplitr
  · ipureintro; exact (after_out m c t _ _).mpr ⟨fun hh => absurd hh hc5, fun _ => rfl⟩
  iexact W6

end Cert.KernelIdeal.Hand

end
-- ==== Proof.Hand.Run.lean ====
import proofs.«177239_g36112085024795_cont_8to1_b_1394_22_alg».proof.Proof.Hand.BodyA
import proofs.«177239_g36112085024795_cont_8to1_b_1394_22_alg».proof.Proof.Hand.BodyB
import proofs.«177239_g36112085024795_cont_8to1_b_1394_22_alg».proof.Proof.Hand.BodyC
import proofs.«177239_g36112085024795_cont_8to1_b_1394_22_alg».proof.Proof.Hand.BodyD
import proofs.«177239_g36112085024795_cont_8to1_b_1394_22_alg».proof.Proof.Hand.BodyE
import proofs.«177239_g36112085024795_cont_8to1_b_1394_22_alg».proof.Proof.Hand.BodyF
import Idealize.ShloMosaic.Lib.Pipeline.Frame

set_option maxRecDepth 16384

noncomputable section

/-!
# The run

Every point of the grid is one of six kinds; the body obligation at a point is its kind's. The frame run over the
relational proof data then says: every weakly fair execution ends, faulting nowhere, each staged argument array as it
was, and the output array in the relation the write-backs generate.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) (Y : (w : Fin cfg0.W) → (cfg0.win w).block.Idx → Elt F (cfg0.win w).elt)
    (hY : ∀ w, (rdat m c).Finds w t (Y w)) : Sound m c t Y := by
  have h50 := N50 t
  by_cases h0 : t.val = 0; · exact bodyA m c t Y hY h0
  by_cases h1 : t.val = 1; · exact bodyB m c t Y hY h1
  by_cases h2 : t.val < 25; · exact bodyC m c t Y hY ⟨by omega, h2⟩
  by_cases h3 : t.val = 25; · exact bodyD m c t Y hY h3
  by_cases h4 : t.val < 48; · exact bodyE m c t Y hY ⟨by omega, h4⟩
  exact bodyF m c t Y hY (by omega)

/-- The library's body obligation over the relational proof data, at every point. -/
theorem body_obligation (c : Dev nD) : (rdat (F := F) m c).BodyObligation (defs₀ (F := F)) Variants.none () Set.univ := fun t Y hY => by
  rw [bigSep_W0, bigSep_W0]
  exact sound_body m c t Y hY

set_option backward.isDefEq.respectTransparency.types false in
/-- The frame run: every weakly fair execution of @main terminates without a fault; each array a window stages ends at
    contents the write-backs may leave, every other unscoped buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m)
    (hout := fun c => hout m c _)

/-- An input window's array ends as the region found it. -/
theorem arr_in (c : Dev nD) (w : Fin cfg0.W) (hw : (cfg0.win w).isOut = false) (G) (h : (rdat m c).ArrAt w cfg0.N G) :
    G = V m c (Pipeline.arrRef spec0 w) := by
  rw [(rdat m c).ArrAt_in w hw] at h
  exact h.trans (A_eq m c w)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 1 rfl _ ((h c).1 1)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c)⟩) (run_main m ρ)

end Cert.KernelIdeal.Hand

end
-- ==== Proof.Hand.Final.lean ====
import proofs.«177239_g36112085024795_cont_8to1_b_1394_22_alg».proof.Proof.Hand.Run
import Idealize.ShloMosaic.Lib.Pipeline.Value

set_option maxRecDepth 16384

noncomputable section

/-!
# The output array after the run

Every block of the output array is written back twice: once in phase 0, with whatever the staging buffer then held, and
once in phase 1, with the block's value — block `b ≥ 2` at point `b + 23`, blocks 0 and 1 at points 48 and 49. The later
write-back wins, so the array ends as one function of the argument arrays' blocks.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The output block a point of phase 1 leaves in the staging buffer. -/
def OUTpt (c : Dev nD) (t : Fin cfg0.N) : Vec F S400x64 .f32 :=
  if h6 : cond6 (grid0.coords t) then
    k0_pay6 (View.ld (CA m c) (Rect.unit (k0_off3 (grid0.coords t)) S1x400x10000.size (k0_off3_inb (grid0.coords t) h6))) (k0_pay4 (S2 m c)) (iblk m c 5 t)
  else k0_pay5 (iblk m c 1 t) (S2 m c) (iblk m c 5 t)

/-- The point of phase 1 that writes output block `b`. -/
def uOf (b : ℕ) : ℕ := if 2 ≤ b then b + 23 else b + 48

/-- The output array after the run: row `r` is row `r % 400` of the block its phase-1 point leaves. -/
def Gk (c : Dev nD) : S10000x64.Idx → Elt F .f32 := fun i =>
  OUTpt m c (pt (uOf ((i 0).val / 400))) (ix2 ⟨(i 0).val % 400, Nat.mod_lt _ (by omega)⟩ ⟨(i 1).val, (i 1).isLt⟩)

theorem leaves_eq (c : Dev nD) (t : Fin cfg0.N) (h25 : 25 ≤ t.val) (X) (hX : (rdat m c).Leaves 6 t X) : X = OUTpt m c t := by
  obtain ⟨Y, -, hA⟩ := hX
  rw [after_out] at hA
  have h50 := N50 t
  unfold OUTpt
  by_cases h48 : t.val < 48
  · rw [dif_neg (fun hh => absurd ((hcond6 t).mp hh) (by omega))]
    exact hA.1 ((hcond5 t).mpr ⟨h25, h48⟩)
  · have h6 : cond6 (grid0.coords t) := (hcond6 t).mpr (by omega)
    rw [dif_pos h6]
    exact hA.2 h6

/-- An index of the output array is in point `t`'s block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v0).slice (win0_6.rect t)).set ↔ _
  rw [View.set_slice_whole, Rect.mem_set_unit]
  exact Iff.rfl

theorem pt_val (n : ℕ) (h : n < 50) : (pt n).val = n := Nat.mod_eq_of_lt h

/-- Block `t` of the named array is what point `t` of phase 1 leaves. -/
theorem blk_read_Gk (c : Dev nD) (t : Fin cfg0.N) (h25 : 25 ≤ t.val) :
    ((cfg0.win 6).blk t).view.read (Elt F) (Gk m c) = OUTpt m c t := by
  have h50 := N50 t
  have hi0 : win0_6.index t (0 : Fin 2) = if t.val < 48 then t.val - 23 else t.val - 48 := congrFun (hidx6 t h25) 0
  have hi1 : win0_6.index t (1 : Fin 2) = 0 := congrFun (hidx6 t h25) 1
  funext y
  have hy0 : (y 0).val < 400 := (y 0).isLt
  have hy1 : (y 1).val < 64 := (y 1).isLt
  show Gk m c (((cfg0.win 6).blk t).view.emb y) = OUTpt m c t y
  have e0 : ((((cfg0.win 6).blk t).view.emb y) 0).val = win0_6.index t (0 : Fin 2) * 400 + (y 0).val := by
    show win0_6.index t (0 : Fin 2) * 400 + 1 * (y 0).val = _; omega
  have e1 : ((((cfg0.win 6).blk t).view.emb y) 1).val = (y 1).val := by
    show win0_6.index t (1 : Fin 2) * 64 + 1 * (y 1).val = _; rw [hi1]; omega
  unfold Gk
  have eb : ((((cfg0.win 6).blk t).view.emb y) 0).val / 400 = win0_6.index t (0 : Fin 2) := by rw [e0]; omega
  have et : pt (uOf (((((cfg0.win 6).blk t).view.emb y) 0).val / 400)) = t :=
    pt_of t (by rw [eb, hi0]; unfold uOf; split <;> split <;> omega)
  rw [et]
  congr 1
  funext a
  match a with
  | ⟨0, _⟩ => exact Fin.ext (by show ((((cfg0.win 6).blk t).view.emb y) 0).val % 400 = (y 0).val; rw [e0]; omega)
  | ⟨1, _⟩ => exact Fin.ext (by show ((((cfg0.win 6).blk t).view.emb y) 1).val = (y 1).val; exact e1)

/-- An index a phase-1 point's block covers reads, after the write-backs below `n`, the named array: the last point
    to cover it is of phase 1, and what that point writes back is its block of the named array. -/
theorem arr_out_mem (c : Dev nD) (G : S10000x64.Idx → Elt F .f32)
    (hG : ∀ t : Fin cfg0.N, 25 ≤ t.val → ∀ X, (rdat m c).Leaves 6 t X →
      (cfg0.win 6).cut (cfg0.grid.coords t) X = ((cfg0.win 6).blk t).view.read (Elt F) G) :
    ∀ (n : ℕ) (Fc : Buf (Elt F) ((cfg0.win 6).arr.view.loc (c.tc : Thread nD τ))), (rdat m c).ArrAt 6 n Fc →
      ∀ (t : Fin cfg0.N) (i : S10000x64.Idx), 25 ≤ t.val → t.val < n → i ∈ ((cfg0.win 6).blk t).view.set → Fc i = G i
  | 0, _, _, _, _, _, ht, _ => absurd ht (Nat.not_lt_zero _)
  | n + 1, Fc, h, t, i, h25, ht, hi => by
    by_cases hn : n < cfg0.N
    swap
    · rw [(rdat m c).ArrAt_stable 6 (n + 1) (by omega), ← (rdat m c).ArrAt_stable 6 n (by omega)] at h
      exact arr_out_mem c G hG n Fc h t i h25 (by have := t.isLt; omega) hi
    rw [show n + 1 = (⟨n, hn⟩ : Fin cfg0.N).val + 1 from rfl, (rdat m c).ArrAt_succ 6 ⟨n, hn⟩, if_pos (flush0_6 ⟨n, hn⟩)] at h
    obtain ⟨G₀, X, hG₀, hX, rfl⟩ := h
    by_cases hin : i ∈ ((cfg0.win 6).blk ⟨n, hn⟩).view.set
    · have hn25 : 25 ≤ n := by omega
      rw [hG ⟨n, hn⟩ hn25 X hX, View.write_read_eq_piecewise, Finset.piecewise_eq_of_mem _ _ _ (by rw [View.setOn_univ]; exact hin)]
    · rw [View.write_of_not_mem _ _ _ (by rw [View.setOn_univ]; exact hin)]
      have htn : t.val ≠ n := fun e => hin (by have : t = ⟨n, hn⟩ := Fin.ext e; exact this ▸ hi)
      exact arr_out_mem c G hG n G₀ hG₀ t i h25 (by omega) hi

/-- Every index of the output array is in the block of a point of phase 1. -/
theorem cover6 (i : S10000x64.Idx) : ∃ t : Fin cfg0.N, 25 ≤ t.val ∧ i ∈ ((cfg0.win 6).blk t).view.set := by
  have hi0 : (i 0).val < 10000 := (i 0).isLt
  have hi1 : (i 1).val < 64 := (i 1).isLt
  have hu : uOf ((i 0).val / 400) < 50 ∧ 25 ≤ uOf ((i 0).val / 400) := by unfold uOf; split <;> omega
  refine ⟨pt (uOf ((i 0).val / 400)), by rw [pt_val _ hu.1]; exact hu.2, ?_⟩
  have h25 : 25 ≤ (pt (uOf ((i 0).val / 400))).val := by rw [pt_val _ hu.1]; exact hu.2
  have q0' : win0_6.index (pt (uOf ((i 0).val / 400))) (0 : Fin 2)
      = if (pt (uOf ((i 0).val / 400))).val < 48 then (pt (uOf ((i 0).val / 400))).val - 23 else (pt (uOf ((i 0).val / 400))).val - 48 :=
    congrFun (hidx6 _ h25) 0
  have q0 : win0_6.index (pt (uOf ((i 0).val / 400))) (0 : Fin 2) = (i 0).val / 400 := by
    rw [q0', pt_val _ hu.1]
    unfold uOf; split <;> split <;> omega
  have q1 : win0_6.index (pt (uOf ((i 0).val / 400))) (1 : Fin 2) = 0 := congrFun (hidx6 _ h25) 1
  rw [mem_blk6]
  intro a
  match a with
  | ⟨0, _⟩ => show win0_6.index _ (0 : Fin 2) * 400 ≤ (i 0).val ∧ (i 0).val < win0_6.index _ (0 : Fin 2) * 400 + 400; rw [q0]; omega
  | ⟨1, _⟩ => show win0_6.index _ (1 : Fin 2) * 64 ≤ (i 1).val ∧ (i 1).val < win0_6.index _ (1 : Fin 2) * 64 + 64; rw [q1]; omega

/-- The output array after every write-back is the named array. -/
theorem final_out (c : Dev nD) (Fc : Buf (Elt F) ((cfg0.win 6).arr.view.loc (c.tc : Thread nD τ)))
    (h : (rdat m c).ArrAt 6 cfg0.N Fc) : Fc = Gk m c := by
  funext i
  obtain ⟨t, h25, hi⟩ := cover6 i
  exact arr_out_mem m c (Gk m c) (fun t h25 X hX => by rw [leaves_eq m c t h25 X hX, blk_read_Gk m c t h25]; rfl)
    cfg0.N Fc h t i h25 t.isLt hi

/-- The run, read: the output array ends at the named array, the argument arrays as they were. -/
theorem run_value : θ_run defs (onTc (τ := τ) (main (F := F))) ⟨m, fun _ => 0, ρ⟩ (fun r => ∀ c : Dev nD,
      r.2.mem ((c.tc : Thread nD τ).loc main_v0) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (arr_in m c 0 rfl _ ((h c).1 0)).trans (V_main_arg0 m c),
      (arr_in m c 1 rfl _ ((h c).1 1)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c)⟩) (run_main m ρ)

end Cert.KernelIdeal.Hand

end
-- ==== Proof.Hand.Pay.lean ====
import proofs.«177239_g36112085024795_cont_8to1_b_1394_22_alg».proof.Proof.Gen.KernelIdeal.Skeleton
import Idealize.ShloMosaic.Lib.Pipeline.Value
import Idealize.ShloMosaic.Lib.ValueIdx
import Idealize.ShloMosaic.PureOps.Ideal.Laws

set_option maxRecDepth 16384

/-!
# The body's arithmetic on the extended reals, one index at a time

On the extended reals a matrix product into a zero accumulator is the plain sum of products over the contracted axis, a
change of float format is the identity, and the bias's row vector broadcast down the rows reads the bias at the column.
So each payload of the body, read at an index, is the textbook expression of the layer it computes.
-/

noncomputable section

namespace Cert.KernelIdeal.Hand

open Cert.KernelIdeal Cert.KernelIdeal.Gen
open Idealize.ShloMosaic Idealize.ShloMosaic.ValueIdx
open scoped BigOperators

theorem mmX_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mmX_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem mmX_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem mmX_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- The product into a zero accumulator, read at an output index: the sum over the contracted axis. -/
theorem mmX_apply {φ₁ φ₂ : FTy} (x : FVec Ideal S10000x128 φ₁) (w : FVec Ideal S128x64 φ₂) (i : S10000x64.Idx) :
    matmul dot_S10000x128_S128x64_S10000x64_1_0_0_1_n_n none x w (constant S10000x64 .f32 0x00000000#32) i
      = ∑ k : Fin 128, x (ix2 ⟨(i 0).val, (i 0).isLt⟩ k) * w (ix2 k ⟨(i 1).val, (i 1).isLt⟩) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = ix2 ⟨(i 0).val, (i 0).isLt⟩ k := funext fun a => Fin.ext (by
    match a with
    | ⟨0, _⟩ => exact mmX_lhs0 _ _
    | ⟨1, _⟩ => exact (mmX_lhs1 _ _).trans hk)
  have er : dot_S10000x128_S128x64_S10000x64_1_0_0_1_n_n.rhsIdx i ((ValueIdx.contrEquiv1 dot_S10000x128_S128x64_S10000x64_1_0_0_1_n_n 128 rfl rfl).symm k) = ix2 k ⟨(i 1).val, (i 1).isLt⟩ := funext fun a => Fin.ext (by
    match a with
    | ⟨0, _⟩ => exact (mmX_rhs0 _ _).trans hk
    | ⟨1, _⟩ => exact mmX_rhs1 _ _)
  rw [el, er]
  rfl

theorem mmA_lhs0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem mmA_lhs1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem mmA_rhs0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem mmA_rhs1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- The product into a zero accumulator, read at an output index: the sum over the contracted axis. -/
theorem mmA_apply {φ₁ φ₂ : FTy} (x : FVec Ideal S400x10000 φ₁) (w : FVec Ideal S10000x64 φ₂) (i : S400x64.Idx) :
    matmul dot_S400x10000_S10000x64_S400x64_1_0_0_1_n_n none x w (constant S400x64 .f32 0x00000000#32) i
      = ∑ k : Fin 10000, x (ix2 ⟨(i 0).val, (i 0).isLt⟩ k) * w (ix2 k ⟨(i 1).val, (i 1).isLt⟩) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx i ((ValueIdx.contrEquiv1 dot_S400x10000_S10000x64_S400x64_1_0_0_1_n_n 10000 rfl rfl).symm k) = ix2 ⟨(i 0).val, (i 0).isLt⟩ k := funext fun a => Fin.ext (by
    match a with
    | ⟨0, _⟩ => exact mmA_lhs0 _ _
    | ⟨1, _⟩ => exact (mmA_lhs1 _ _).trans hk)
  have er : dot_S400x10000_S10000x64_S400x64_1_0_0_1_n_n.rhsIdx i ((ValueIdx.contrEquiv1 dot_S400x10000_S10000x64_S400x64_1_0_0_1_n_n 10000 rfl rfl).symm k) = ix2 k ⟨(i 1).val, (i 1).isLt⟩ := funext fun a => Fin.ext (by
    match a with
    | ⟨0, _⟩ => exact (mmA_rhs0 _ _).trans hk
    | ⟨1, _⟩ => exact mmA_rhs1 _ _)
  rw [el, er]
  rfl

theorem mmH_lhs0 (i : S400x64.Idx) (q : dot_S400x64_S64x64_S400x64_1_0_0_1_n_n.contr.Idx) : (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem mmH_lhs1 (i : S400x64.Idx) (q : dot_S400x64_S64x64_S400x64_1_0_0_1_n_n.contr.Idx) : (dot_S400x64_S64x64_S400x64_1_0_0_1_n_n.lhsIdx i q 1).val = (q ⟨0, by decide⟩).val :=
  dot_S400x64_S64x64_S400x64_1_0_0_1_n_n.lhsIdx_val_of_single rfl i q
theorem mmH_rhs0 (i : S400x64.Idx) (q : dot_S400x64_S64x64_S400x64_1_0_0_1_n_n.contr.Idx) : (dot_S400x64_S64x64_S400x64_1_0_0_1_n_n.rhsIdx i q 0).val = (q ⟨0, by decide⟩).val :=
  dot_S400x64_S64x64_S400x64_1_0_0_1_n_n.rhsIdx_val_of_single rfl i q
theorem mmH_rhs1 (i : S400x64.Idx) (q : dot_S400x64_S64x64_S400x64_1_0_0_1_n_n.contr.Idx) : (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl
/-- The product into a zero accumulator, read at an output index: the sum over the contracted axis. -/
theorem mmH_apply {φ₁ φ₂ : FTy} (x : FVec Ideal S400x64 φ₁) (w : FVec Ideal S64x64 φ₂) (i : S400x64.Idx) :
    matmul dot_S400x64_S64x64_S400x64_1_0_0_1_n_n none x w (constant S400x64 .f32 0x00000000#32) i
      = ∑ k : Fin 64, x (ix2 ⟨(i 0).val, (i 0).isLt⟩ k) * w (ix2 k ⟨(i 1).val, (i 1).isLt⟩) := by
  simp only [matmul]
  rw [Ideal.matmul_constant_zero_apply, ← Equiv.sum_comp (ValueIdx.contrEquiv1 dot_S400x64_S64x64_S400x64_1_0_0_1_n_n 64 rfl rfl).symm]
  refine Finset.sum_congr rfl fun k _ => ?_
  have hk := ValueIdx.contrEquiv1_symm_val dot_S400x64_S64x64_S400x64_1_0_0_1_n_n 64 rfl rfl k
  have el : dot_S400x64_S64x64_S400x64_1_0_0_1_n_n.lhsIdx i ((ValueIdx.contrEquiv1 dot_S400x64_S64x64_S400x64_1_0_0_1_n_n 64 rfl rfl).symm k) = ix2 ⟨(i 0).val, (i 0).isLt⟩ k := funext fun a => Fin.ext (by
    match a with
    | ⟨0, _⟩ => exact mmH_lhs0 _ _
    | ⟨1, _⟩ => exact (mmH_lhs1 _ _).trans hk)
  have er : dot_S400x64_S64x64_S400x64_1_0_0_1_n_n.rhsIdx i ((ValueIdx.contrEquiv1 dot_S400x64_S64x64_S400x64_1_0_0_1_n_n 64 rfl rfl).symm k) = ix2 k ⟨(i 1).val, (i 1).isLt⟩ := funext fun a => Fin.ext (by
    match a with
    | ⟨0, _⟩ => exact (mmH_rhs0 _ _).trans hk
    | ⟨1, _⟩ => exact mmH_rhs1 _ _)
  rw [el, er]
  rfl

/-- The bias, a `1 × 64` row, broadcast down 400 rows, read at `(r, j)`: the bias at column `j`. -/
theorem bias_apply (b : Vec Ideal S1x64 .f32) (y : S400x64.Idx) :
    broadcastTo S400x64 (shapeCast S1x64 (shapeCast S64 b Facts₀.shapeCasts_S1x64_S64) Facts₀.shapeCasts_S64_S1x64) Facts₀.broadcasts_S1x64_S400x64 y
      = b (ix2 ⟨0, Nat.one_pos⟩ ⟨(y 1).val, (y 1).isLt⟩) := by
  rw [shapeCast_shapeCast]
  exact broadcastTo_apply b Facts₀.broadcasts_S1x64_S400x64 y (ix2 ⟨0, Nat.one_pos⟩ ⟨(y 1).val, (y 1).isLt⟩) (fun a => match a with
    | ⟨0, _⟩ => by show 0 = if (1 : Nat) = 1 then 0 else (y 0).val; rw [if_pos rfl]
    | ⟨1, _⟩ => by show (y 1).val = if (64 : Nat) = 1 then 0 else (y 1).val; rw [if_neg (by decide)])

/-- The feature projection at `(r, j)`: `∑ₖ x[r, k] · W1[k, j]`. -/
theorem pay1_apply (x : Vec Ideal S10000x128 .f32) (w : Vec Ideal S128x64 .f32) (i : S10000x64.Idx) :
    k0_pay1 (F := Ideal) x w i = ∑ k : Fin 128, x (ix2 ⟨(i 0).val, (i 0).isLt⟩ k) * w (ix2 k ⟨(i 1).val, (i 1).isLt⟩) := by
  unfold k0_pay1
  rw [shapeCast_self]
  exact mmX_apply x w i

/-- A block of the hidden layer's projection at `(r, j)`: `∑ₗ max(∑ₖ a[r, k] · s[k, l] + b[l], 0) · W2[l, j]`. -/
theorem pay2_apply (a : Vec Ideal S400x10000 .f32) (s : Vec Ideal S10000x64 .f32) (b : Vec Ideal S1x64 .f32) (w : Vec Ideal S64x64 .f32) (y : S400x64.Idx) :
    k0_pay2 (F := Ideal) a s b w y
      = ∑ l : Fin 64, FloatOps.maximumf (F := Ideal) (FloatOps.addf (F := Ideal) (∑ k : Fin 10000, a (ix2 ⟨(y 0).val, (y 0).isLt⟩ k) * s (ix2 k l)) (b (ix2 ⟨0, Nat.one_pos⟩ l)))
          (FloatOps.ofBits .f32 0x00000000#32) * w (ix2 l ⟨(y 1).val, (y 1).isLt⟩) := by
  unfold k0_pay2
  rw [shapeCast_self]
  refine (mmH_apply _ w y).trans (Finset.sum_congr rfl fun l _ => ?_)
  congr 1
  show FloatOps.maximumf (F := Ideal) (FloatOps.addf (F := Ideal) (matmul dot_S400x10000_S10000x64_S400x64_1_0_0_1_n_n none a s (constant S400x64 .f32 0x00000000#32) (ix2 ⟨(y 0).val, (y 0).isLt⟩ l))
      (broadcastTo S400x64 (shapeCast S1x64 (shapeCast S64 b Facts₀.shapeCasts_S1x64_S64) Facts₀.shapeCasts_S64_S1x64) Facts₀.broadcasts_S1x64_S400x64 (ix2 ⟨(y 0).val, (y 0).isLt⟩ l))) _ = _
  rw [mmA_apply, bias_apply]
  rfl

/-- An output block from the streamed adjacency rows at `(r, j)`: `∑ₖ a[r, k] · s[k, j] + b[j]`. -/
theorem pay5_apply (a : Vec Ideal S400x10000 .f32) (s : Vec Ideal S10000x64 .f32) (b : Vec Ideal S1x64 .f32) (y : S400x64.Idx) :
    k0_pay5 (F := Ideal) a s b y
      = FloatOps.addf (F := Ideal) (∑ k : Fin 10000, a (ix2 ⟨(y 0).val, (y 0).isLt⟩ k) * s (ix2 k ⟨(y 1).val, (y 1).isLt⟩)) (b (ix2 ⟨0, Nat.one_pos⟩ ⟨(y 1).val, (y 1).isLt⟩)) := by
  unfold k0_pay5
  show FloatOps.addf (F := Ideal) (matmul dot_S400x10000_S10000x64_S400x64_1_0_0_1_n_n none a s (constant S400x64 .f32 0x00000000#32) y)
      (broadcastTo S400x64 (shapeCast S1x64 (shapeCast S64 b Facts₀.shapeCasts_S1x64_S64) Facts₀.shapeCasts_S64_S1x64) Facts₀.broadcasts_S1x64_S400x64 y) = _
  rw [mmA_apply, bias_apply]

/-- An output block from the kept adjacency rows at `(r, j)`: the same sum over the kept rows and the narrowed projection. -/
theorem pay6_apply (v : Vec Ideal S1x400x10000 .bf16) (s : Vec Ideal S10000x64 .bf16) (b : Vec Ideal S1x64 .f32) (y : S400x64.Idx) :
    k0_pay6 (F := Ideal) v s b y
      = FloatOps.addf (F := Ideal) (∑ k : Fin 10000, v (ix3 ⟨0, Nat.one_pos⟩ ⟨(y 0).val, (y 0).isLt⟩ k) * s (ix2 k ⟨(y 1).val, (y 1).isLt⟩)) (b (ix2 ⟨0, Nat.one_pos⟩ ⟨(y 1).val, (y 1).isLt⟩)) := by
  unfold k0_pay6
  show FloatOps.addf (F := Ideal) (matmul dot_S400x10000_S10000x64_S400x64_1_0_0_1_n_n none (shapeCast S400x10000 v Facts₀.shapeCasts_S1x400x10000_S400x10000) s (constant S400x64 .f32 0x00000000#32) y)
      (broadcastTo S400x64 (shapeCast S1x64 (shapeCast S64 b Facts₀.shapeCasts_S1x64_S64) Facts₀.shapeCasts_S64_S1x64) Facts₀.broadcasts_S1x64_S400x64 y) = _
  rw [mmA_apply, bias_apply]
  congr 1
  refine Finset.sum_congr rfl fun k _ => ?_
  congr 1
  refine (shapeCast_dropUnit_apply (![400, 10000]) v Facts₀.shapeCasts_S1x400x10000_S400x10000 _).trans (congrArg v ?_)
  funext a
  match a with
  | ⟨0, _⟩ => rfl
  | ⟨1, _⟩ => rfl
  | ⟨2, _⟩ => rfl

/-- The kept rows: slot 0 of the one-slot block at `(0, r, k)` is the adjacency block at `(r, k)`. -/
theorem pay3_apply (a : Vec Ideal S400x10000 .f32) (z : S1x400x10000.Idx) :
    k0_pay3 (F := Ideal) a z = a (ix2 ⟨(z 1).val, (z 1).isLt⟩ ⟨(z 2).val, (z 2).isLt⟩) := by
  unfold k0_pay3
  refine (shapeCast_addUnit_apply (![400, 10000]) _ Facts₀.shapeCasts_S400x10000_S1x400x10000 z).trans ?_
  show a _ = a _
  congr 1
  funext d
  match d with
  | ⟨0, _⟩ => rfl
  | ⟨1, _⟩ => rfl

/-- The narrowed projection is the projection. -/
theorem pay4_eq (s : Vec Ideal S10000x64 .f32) : k0_pay4 (F := Ideal) s = s := by
  unfold k0_pay4
  show shapeCast S10000x64 (truncf (F := Ideal) .bf16 s Facts₀.bitsLt_bf16_f32) Facts₀.shapeCasts_S10000x64_S10000x64 = s
  rw [shapeCast_self]
  rfl

end Cert.KernelIdeal.Hand

end
-- ==== Proof.Hand.Blocks.lean ====
import proofs.«177239_g36112085024795_cont_8to1_b_1394_22_alg».proof.Proof.Hand.Conds
import Idealize.ShloMosaic.Lib.Pipeline.Value
import Idealize.ShloMosaic.Lib.ValueIdx
import Idealize.ShloMosaic.Lib.StableHlo.Run

set_option maxRecDepth 16384

noncomputable section

/-!
# The windows' blocks as entries of the argument arrays

Five windows stage their whole array at every point; the adjacency window's block at a point is 400 whole rows of the
adjacency matrix, starting at 400 times the window's block index.
-/
namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem hidx0 : ∀ t : Fin cfg0.N, win0_0.index t = ![0, 0] := (by decide +kernel : ∀ t : Fin grid0.N, win0_0.index t = ![0, 0])
theorem hidx2 : ∀ t : Fin cfg0.N, win0_2.index t = ![0, 0] := (by decide +kernel : ∀ t : Fin grid0.N, win0_2.index t = ![0, 0])
theorem hidx3 : ∀ t : Fin cfg0.N, win0_3.index t = ![0, 0] := (by decide +kernel : ∀ t : Fin grid0.N, win0_3.index t = ![0, 0])
theorem hidx4 : ∀ t : Fin cfg0.N, win0_4.index t = ![0, 0] := (by decide +kernel : ∀ t : Fin grid0.N, win0_4.index t = ![0, 0])
theorem hidx5 : ∀ t : Fin cfg0.N, win0_5.index t = ![0, 0] := (by decide +kernel : ∀ t : Fin grid0.N, win0_5.index t = ![0, 0])

/-- Window 0 stages its whole array as one block. -/
theorem iblk0_eq (c : Dev nD) (t : Fin cfg0.N) : (iblk m c 0 t : Vec F S10000x128 .f32) = m ((c.tc : Thread nD τ).loc main_arg0) := by
  rw [← V_main_arg0 m c]
  funext y
  unfold iblk
  show V m c main_arg0 (((cfg0.win 0).blk t).view.emb y) = V m c main_arg0 y
  congr 1
  funext a; apply Fin.ext
  have h0 : win0_0.index t (0 : Fin 2) = 0 := congrFun (hidx0 t) 0
  have h1 : win0_0.index t (1 : Fin 2) = 0 := congrFun (hidx0 t) 1
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 2 stages its whole array as one block. -/
theorem iblk2_eq (c : Dev nD) (t : Fin cfg0.N) : (iblk m c 2 t : Vec F S128x64 .f32) = m ((c.tc : Thread nD τ).loc main_arg2) := by
  rw [← V_main_arg2 m c]
  funext y
  unfold iblk
  show V m c main_arg2 (((cfg0.win 2).blk t).view.emb y) = V m c main_arg2 y
  congr 1
  funext a; apply Fin.ext
  have h0 : win0_2.index t (0 : Fin 2) = 0 := congrFun (hidx2 t) 0
  have h1 : win0_2.index t (1 : Fin 2) = 0 := congrFun (hidx2 t) 1
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- Window 4 stages its whole array as one block. -/
theorem iblk4_eq (c : Dev nD) (t : Fin cfg0.N) : (iblk m c 4 t : Vec F S64x64 .f32) = m ((c.tc : Thread nD τ).loc main_arg4) := by
  rw [← V_main_arg4 m c]
  funext y
  unfold iblk
  show V m c main_arg4 (((cfg0.win 4).blk t).view.emb y) = V m c main_arg4 y
  congr 1
  funext a; apply Fin.ext
  have h0 : win0_4.index t (0 : Fin 2) = 0 := congrFun (hidx4 t) 0
  have h1 : win0_4.index t (1 : Fin 2) = 0 := congrFun (hidx4 t) 1
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The adjacency window's block at point `t`, read at `(r, k)`: the adjacency matrix at row `400 · index + r`, column `k`. -/
theorem iblk1_apply (c : Dev nD) (t : Fin cfg0.N) (y : S400x10000.Idx) (i : S10000x10000.Idx)
    (h0 : (i 0).val = win0_1.index t (0 : Fin 2) * 400 + (y 0).val) (h1 : (i 1).val = (y 1).val) :
    (iblk m c 1 t : Vec F S400x10000 .f32) y = m ((c.tc : Thread nD τ).loc main_arg1) i := by
  rw [← V_main_arg1 m c]
  unfold iblk
  show V m c main_arg1 (((cfg0.win 1).blk t).view.emb y) = V m c main_arg1 i
  congr 1
  funext a; apply Fin.ext
  have hz : win0_1.index t (1 : Fin 2) = 0 := congrFun (hidx1 t) 1
  match a with
  | ⟨0, _⟩ => show win0_1.index t (0 : Fin 2) * 400 + 1 * (y 0).val = (i 0).val; omega
  | ⟨1, _⟩ => show win0_1.index t (1 : Fin 2) * 10000 + 1 * (y 1).val = (i 1).val; omega

/-- The reshaped bias as the region finds it: the bias vector viewed as one row. -/
theorem V_main_call0_v0 (c : Dev nD) : (V m c main_call0_v0 : S1x64.Idx → Elt F .f32) = shapeCast S1x64 (m ((c.tc : Thread nD τ).loc main_arg3)) Facts₀.shapeCasts_S64_S1x64 := by
  dsimp only [V, hostOps0]; after_results; rfl

/-- Window 3 stages the bias row: at `(0, l)` the bias at `l`. -/
theorem iblk3_apply (c : Dev nD) (t : Fin cfg0.N) (l : Fin 64) :
    (iblk m c 3 t : Vec F S1x64 .f32) (ix2 ⟨0, Nat.one_pos⟩ l) = m ((c.tc : Thread nD τ).loc main_arg3) (ix1 l) := by
  have e : (iblk m c 3 t : Vec F S1x64 .f32) = V m c main_call0_v0 := by
    funext y
    unfold iblk
    show V m c main_call0_v0 (((cfg0.win 3).blk t).view.emb y) = V m c main_call0_v0 y
    congr 1
    funext a; apply Fin.ext
    have h0 : win0_3.index t (0 : Fin 2) = 0 := congrFun (hidx3 t) 0
    have h1 : win0_3.index t (1 : Fin 2) = 0 := congrFun (hidx3 t) 1
    match a with
    | ⟨0, _⟩ => show win0_3.index t (0 : Fin 2) * 1 + 1 * (y 0).val = (y 0).val; omega
    | ⟨1, _⟩ => show win0_3.index t (1 : Fin 2) * 64 + 1 * (y 1).val = (y 1).val; omega
  rw [e, V_main_call0_v0]
  refine (shapeCast_addUnit_apply (![64]) _ Facts₀.shapeCasts_S64_S1x64 _).trans (congrArg _ ?_)
  funext a
  match a with
  | ⟨0, _⟩ => rfl

/-- The reshaped bias as the region finds it: the bias vector viewed as one row. -/
theorem V_main_call0_v1 (c : Dev nD) : (V m c main_call0_v1 : S1x64.Idx → Elt F .f32) = shapeCast S1x64 (m ((c.tc : Thread nD τ).loc main_arg5)) Facts₀.shapeCasts_S64_S1x64 := by
  dsimp only [V, hostOps0]; after_results; rfl

/-- Window 5 stages the bias row: at `(0, l)` the bias at `l`. -/
theorem iblk5_apply (c : Dev nD) (t : Fin cfg0.N) (l : Fin 64) :
    (iblk m c 5 t : Vec F S1x64 .f32) (ix2 ⟨0, Nat.one_pos⟩ l) = m ((c.tc : Thread nD τ).loc main_arg5) (ix1 l) := by
  have e : (iblk m c 5 t : Vec F S1x64 .f32) = V m c main_call0_v1 := by
    funext y
    unfold iblk
    show V m c main_call0_v1 (((cfg0.win 5).blk t).view.emb y) = V m c main_call0_v1 y
    congr 1
    funext a; apply Fin.ext
    have h0 : win0_5.index t (0 : Fin 2) = 0 := congrFun (hidx5 t) 0
    have h1 : win0_5.index t (1 : Fin 2) = 0 := congrFun (hidx5 t) 1
    match a with
    | ⟨0, _⟩ => show win0_5.index t (0 : Fin 2) * 1 + 1 * (y 0).val = (y 0).val; omega
    | ⟨1, _⟩ => show win0_5.index t (1 : Fin 2) * 64 + 1 * (y 1).val = (y 1).val; omega
  rw [e, V_main_call0_v1]
  refine (shapeCast_addUnit_apply (![64]) _ Facts₀.shapeCasts_S64_S1x64 _).trans (congrArg _ ?_)
  funext a
  match a with
  | ⟨0, _⟩ => rfl

end Cert.KernelIdeal.Hand

end
-- ==== Proof.Hand.Bridge.lean ====
import proofs.«177239_g36112085024795_cont_8to1_b_1394_22_alg».proof.Proof.Hand.Final
import proofs.«177239_g36112085024795_cont_8to1_b_1394_22_alg».proof.Proof.Hand.Pay
import proofs.«177239_g36112085024795_cont_8to1_b_1394_22_alg».proof.Proof.Hand.Blocks
import proofs.«177239_g36112085024795_cont_8to1_b_1394_22_alg».proof.Proof.Gen.ReferenceIdeal.Read

set_option maxRecDepth 16384

/-!
# The kernel's named contents are the reference's stages

On the extended reals the feature projection the kernel keeps is the reference's first product, the hidden layer's
projection it assembles block by block is the reference's third product, and the output array it leaves is the
reference's result: the same sums of the same entries, the kernel's rows merely grouped in blocks of 400.
-/

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators
open Cert.ReferenceIdeal.Read (val_main_v0 val_main_v1 val_main_v3 val_main_v4 val_main_v5 val_main_v6 val_main_v7 val_main_v8 val_main_v10 val_main_v11)

variable (m : (ℓ : Loc nD τ sig) → Buf (Elt Ideal) ℓ)

/-- The six argument arrays, as plain functions of their indices. -/
abbrev AX (c : Dev nD) : (⟨Cert.ReferenceIdeal.S10000x128, .f32⟩ : BufTy).Contents (Elt Ideal) := m ((c.tc : Thread nD τ).loc main_arg0)
abbrev AA (c : Dev nD) : (⟨Cert.ReferenceIdeal.S10000x10000, .f32⟩ : BufTy).Contents (Elt Ideal) := m ((c.tc : Thread nD τ).loc main_arg1)
abbrev AW1 (c : Dev nD) : (⟨Cert.ReferenceIdeal.S128x64, .f32⟩ : BufTy).Contents (Elt Ideal) := m ((c.tc : Thread nD τ).loc main_arg2)
abbrev AB1 (c : Dev nD) : (⟨Cert.ReferenceIdeal.S64, .f32⟩ : BufTy).Contents (Elt Ideal) := m ((c.tc : Thread nD τ).loc main_arg3)
abbrev AW2 (c : Dev nD) : (⟨Cert.ReferenceIdeal.S64x64, .f32⟩ : BufTy).Contents (Elt Ideal) := m ((c.tc : Thread nD τ).loc main_arg4)
abbrev AB2 (c : Dev nD) : (⟨Cert.ReferenceIdeal.S64, .f32⟩ : BufTy).Contents (Elt Ideal) := m ((c.tc : Thread nD τ).loc main_arg5)

/-- The blocks of the moving and the constant windows, typed as plain vectors. -/
abbrev bA (c : Dev nD) (t : Fin cfg0.N) : Vec Ideal S400x10000 .f32 := iblk m c 1 t
abbrev bB1 (c : Dev nD) (t : Fin cfg0.N) : Vec Ideal S1x64 .f32 := iblk m c 3 t
abbrev bW2 (c : Dev nD) (t : Fin cfg0.N) : Vec Ideal S64x64 .f32 := iblk m c 4 t

/-- The feature projection is the reference's `x · W1`. -/
theorem S1_eq (c : Dev nD) : S1 m c = val_main_v0 (F := Ideal) (AX m c) (AW1 m c) := by
  funext i
  rw [Cert.ReferenceIdeal.Read.val_main_v0_apply]
  unfold S1
  rw [pay1_apply, iblk0_eq, iblk2_eq]
  refine Finset.sum_congr rfl fun k _ => ?_
  show AX m c _ * AW1 m c _ = AX m c _ * AW1 m c _
  congr 1 <;> exact congrArg _ (funext fun a => match a with | ⟨0, _⟩ => rfl | ⟨1, _⟩ => rfl)

/-- The reference's hidden unit at `j`: `max(∑ₖ adj[j₀, k] · (x · W1)[k, j₁] + b1[j₁], 0)`. -/
theorem ref_hidden (x0 : (⟨Cert.ReferenceIdeal.S10000x128, .f32⟩ : BufTy).Contents (Elt Ideal)) (x1 : (⟨Cert.ReferenceIdeal.S10000x10000, .f32⟩ : BufTy).Contents (Elt Ideal))
    (x2 : (⟨Cert.ReferenceIdeal.S128x64, .f32⟩ : BufTy).Contents (Elt Ideal)) (x3 : (⟨Cert.ReferenceIdeal.S64, .f32⟩ : BufTy).Contents (Elt Ideal)) (j : Cert.ReferenceIdeal.S10000x64.Idx) :
    val_main_v6 (F := Ideal) x0 x1 x2 x3 j
      = FloatOps.maximumf (F := Ideal) (FloatOps.addf (F := Ideal)
          (∑ q : Fin 10000, x1 (Cert.ReferenceIdeal.Read.lidx_main_v1 j q) * val_main_v0 (F := Ideal) x0 x2 (Cert.ReferenceIdeal.Read.ridx_main_v1 j q))
          (val_main_v3 (F := Ideal) x3 j)) (FloatOps.ofBits .f32 0x00000000#32) := by
  rw [Cert.ReferenceIdeal.Read.val_main_v6_apply, Cert.ReferenceIdeal.Read.val_main_v4_apply, Cert.ReferenceIdeal.Read.val_main_v1_apply, Cert.ReferenceIdeal.Read.val_main_v5_apply, Cert.ReferenceIdeal.Read.val_main_cst_apply]

/-- The reference's bias rows read at `j`: the bias at column `j₁`. -/
theorem ref_bias1 (x3 : (⟨Cert.ReferenceIdeal.S64, .f32⟩ : BufTy).Contents (Elt Ideal)) (j : Cert.ReferenceIdeal.S10000x64.Idx) (l : Fin 64) (hl : (j 1).val = l.val) :
    val_main_v3 (F := Ideal) x3 j = x3 (ix1 l) := by
  rw [Cert.ReferenceIdeal.Read.val_main_v3_apply, Cert.ReferenceIdeal.Read.val_main_v2_apply]
  exact congrArg _ (funext fun a => match a with | ⟨0, _⟩ => Fin.ext hl)

theorem ref_bias2 (x5 : (⟨Cert.ReferenceIdeal.S64, .f32⟩ : BufTy).Contents (Elt Ideal)) (j : Cert.ReferenceIdeal.S10000x64.Idx) (l : Fin 64) (hl : (j 1).val = l.val) :
    val_main_v10 (F := Ideal) x5 j = x5 (ix1 l) := by
  rw [Cert.ReferenceIdeal.Read.val_main_v10_apply, Cert.ReferenceIdeal.Read.val_main_v9_apply]
  exact congrArg _ (funext fun a => match a with | ⟨0, _⟩ => Fin.ext hl)

/-- The adjacency window's block index at a point of phase 0 is the point's position. -/
theorem idx1_lt (t : Fin cfg0.N) (h : t.val < 25) : win0_1.index t (0 : Fin 2) = t.val := by
  have h' : win0_1.index t (0 : Fin 2) = if t.val < 25 then t.val else min (t.val - 23) 24 := congrFun (hidx1 t) 0
  rw [h', if_pos h]

/-- In phase 1, up to point 47, it is the position less 23. -/
theorem idx1_ge (t : Fin cfg0.N) (h : 25 ≤ t.val) (h' : t.val < 48) : win0_1.index t (0 : Fin 2) = t.val - 23 := by
  have e : win0_1.index t (0 : Fin 2) = if t.val < 25 then t.val else min (t.val - 23) 24 := congrFun (hidx1 t) 0
  rw [e, if_neg (by omega)]; omega

set_option maxHeartbeats 2000000 in
/-- The hidden layer's projection, assembled 400 rows at a time, is the reference's `relu(adj · (x · W1) + b1) · W2`. -/
theorem S2_eq (c : Dev nD) : S2 m c = val_main_v7 (F := Ideal) (AX m c) (AA m c) (AW1 m c) (AB1 m c) (AW2 m c) := by
  funext y
  have hy0 : (y 0).val < 10000 := (y 0).isLt
  have ht : (pt ((y 0).val / 400)).val = (y 0).val / 400 := pt_val _ (by omega)
  have hix : win0_1.index (pt ((y 0).val / 400)) (0 : Fin 2) = (y 0).val / 400 := by rw [idx1_lt _ (by omega), ht]
  rw [Cert.ReferenceIdeal.Read.val_main_v7_apply]
  unfold S2 S2blk
  rw [pay2_apply]
  refine Finset.sum_congr rfl fun l _ => ?_
  have hA : ∀ q : Fin 10000, bA m c (pt ((y 0).val / 400)) (ix2 ⟨(y 0).val % 400, Nat.mod_lt _ (by omega)⟩ q)
      = AA m c (Cert.ReferenceIdeal.Read.lidx_main_v1 (Cert.ReferenceIdeal.Read.lidx_main_v7 y l) q) := fun q =>
    iblk1_apply m c _ _ _ (by show (y 0).val = _ * 400 + (y 0).val % 400; rw [hix]; omega) rfl
  have hS : ∀ q : Fin 10000, S1 m c (ix2 q l) = val_main_v0 (F := Ideal) (AX m c) (AW1 m c) (Cert.ReferenceIdeal.Read.ridx_main_v1 (Cert.ReferenceIdeal.Read.lidx_main_v7 y l) q) := fun q => by
    rw [S1_eq]; exact congrArg _ (funext fun a => match a with | ⟨0, _⟩ => rfl | ⟨1, _⟩ => rfl)
  have hB : bB1 m c (pt ((y 0).val / 400)) (ix2 ⟨0, Nat.one_pos⟩ l) = val_main_v3 (F := Ideal) (AB1 m c) (Cert.ReferenceIdeal.Read.lidx_main_v7 y l) :=
    (iblk3_apply m c _ l).trans (ref_bias1 (AB1 m c) _ l rfl).symm
  have hW : bW2 m c (pt ((y 0).val / 400)) (ix2 l ⟨(y 1).val, (y 1).isLt⟩) = AW2 m c (Cert.ReferenceIdeal.Read.ridx_main_v7 y l) :=
    (congrFun (iblk4_eq m c _) _).trans (congrArg (AW2 m c) (funext fun a => match a with | ⟨0, _⟩ => rfl | ⟨1, _⟩ => rfl))
  have hsum : (∑ q : Fin 10000, bA m c (pt ((y 0).val / 400)) (ix2 ⟨(y 0).val % 400, Nat.mod_lt _ (by omega)⟩ q) * S1 m c (ix2 q l))
      = ∑ q : Fin 10000, AA m c (Cert.ReferenceIdeal.Read.lidx_main_v1 (Cert.ReferenceIdeal.Read.lidx_main_v7 y l) q) * val_main_v0 (F := Ideal) (AX m c) (AW1 m c) (Cert.ReferenceIdeal.Read.ridx_main_v1 (Cert.ReferenceIdeal.Read.lidx_main_v7 y l) q) :=
    Finset.sum_congr rfl fun q _ => by rw [hA q, hS q]
  show FloatOps.maximumf (F := Ideal) (FloatOps.addf (F := Ideal)
        (∑ q : Fin 10000, bA m c (pt ((y 0).val / 400)) (ix2 ⟨(y 0).val % 400, Nat.mod_lt _ (by omega)⟩ q) * S1 m c (ix2 q l))
        (bB1 m c (pt ((y 0).val / 400)) (ix2 ⟨0, Nat.one_pos⟩ l))) (FloatOps.ofBits .f32 0x00000000#32)
      * bW2 m c (pt ((y 0).val / 400)) (ix2 l ⟨(y 1).val, (y 1).isLt⟩)
    = val_main_v6 (F := Ideal) (AX m c) (AA m c) (AW1 m c) (AB1 m c) (Cert.ReferenceIdeal.Read.lidx_main_v7 y l) * AW2 m c (Cert.ReferenceIdeal.Read.ridx_main_v7 y l)
  rw [hsum, hB, hW, ref_hidden]

/-- The kept adjacency rows, read back through the last two points' slot: rows of the adjacency matrix. -/
theorem CA_ld (c : Dev nD) (u : Fin cfg0.N) (h6 : cond6 (grid0.coords u)) (r : Fin 400) (k : Fin 10000) (i : Cert.ReferenceIdeal.S10000x10000.Idx)
    (h0 : (i 0).val = (u.val - 48) * 400 + r.val) (h1 : (i 1).val = k.val) :
    View.ld (CA m c) (Rect.unit (k0_off3 (grid0.coords u)) S1x400x10000.size (k0_off3_inb (grid0.coords u) h6)) (ix3 ⟨0, Nat.one_pos⟩ r k)
      = AA m c i := by
  have h48 : 48 ≤ u.val := (hcond6 u).mp h6
  have h50 := N50 u
  have hoff := hoff3 u h48
  show CA m c ((Rect.unit (s := S2x400x10000) (k0_off3 (grid0.coords u)) S1x400x10000.size (k0_off3_inb (grid0.coords u) h6)).emb (ix3 ⟨0, Nat.one_pos⟩ r k)) = _
  have e0 : (((Rect.unit (s := S2x400x10000) (k0_off3 (grid0.coords u)) S1x400x10000.size (k0_off3_inb (grid0.coords u) h6)).emb (ix3 ⟨0, Nat.one_pos⟩ r k)) 0).val = u.val - 48 := by
    rw [Rect.emb_apply]; show k0_off3 (grid0.coords u) (0 : Fin 3) + 1 * 0 = _; rw [hoff]; show (u.val - 48) + 1 * 0 = _; omega
  have e1 : (((Rect.unit (s := S2x400x10000) (k0_off3 (grid0.coords u)) S1x400x10000.size (k0_off3_inb (grid0.coords u) h6)).emb (ix3 ⟨0, Nat.one_pos⟩ r k)) 1).val = r.val := by
    rw [Rect.emb_apply]; show k0_off3 (grid0.coords u) (1 : Fin 3) + 1 * r.val = _; rw [hoff]; show 0 + 1 * r.val = _; omega
  have e2 : (((Rect.unit (s := S2x400x10000) (k0_off3 (grid0.coords u)) S1x400x10000.size (k0_off3_inb (grid0.coords u) h6)).emb (ix3 ⟨0, Nat.one_pos⟩ r k)) 2).val = k.val := by
    rw [Rect.emb_apply]; show k0_off3 (grid0.coords u) (2 : Fin 3) + 1 * k.val = _; rw [hoff]; show 0 + 1 * k.val = _; omega
  have hp : (pt (((Rect.unit (s := S2x400x10000) (k0_off3 (grid0.coords u)) S1x400x10000.size (k0_off3_inb (grid0.coords u) h6)).emb (ix3 ⟨0, Nat.one_pos⟩ r k)) 0).val).val = u.val - 48 := by rw [e0]; exact pt_val _ (by omega)
  unfold CA
  rw [pay3_apply]
  refine iblk1_apply m c _ _ i ?_ ?_
  · rw [idx1_lt _ (by rw [hp]; omega), hp]
    show (i 0).val = (u.val - 48) * 400 + (((Rect.unit (s := S2x400x10000) (k0_off3 (grid0.coords u)) S1x400x10000.size (k0_off3_inb (grid0.coords u) h6)).emb (ix3 ⟨0, Nat.one_pos⟩ r k)) 1).val
    rw [e1]; exact h0
  · show (i 1).val = (((Rect.unit (s := S2x400x10000) (k0_off3 (grid0.coords u)) S1x400x10000.size (k0_off3_inb (grid0.coords u) h6)).emb (ix3 ⟨0, Nat.one_pos⟩ r k)) 2).val
    rw [e2]; exact h1

set_option maxHeartbeats 4000000 in
/-- The block a point up to 47 of phase 1 leaves, read at `(r, j)`, is the reference's result at row `400 · (t - 23) + r`. -/
theorem out_stream (c : Dev nD) (u : Fin cfg0.N) (h25 : 25 ≤ u.val) (h48 : u.val < 48) (y : S400x64.Idx) (i : Cert.ReferenceIdeal.S10000x64.Idx)
    (h0 : (i 0).val = (u.val - 23) * 400 + (y 0).val) (h1 : (i 1).val = (y 1).val) :
    OUTpt m c u y = val_main_v11 (F := Ideal) (AX m c) (AA m c) (AW1 m c) (AB1 m c) (AW2 m c) (AB2 m c) i := by
  have hc6 : ¬cond6 (grid0.coords u) := fun hh => absurd ((hcond6 u).mp hh) (by omega)
  rw [Cert.ReferenceIdeal.Read.val_main_v11_apply, Cert.ReferenceIdeal.Read.val_main_v8_apply, ref_bias2 (AB2 m c) i ⟨(y 1).val, (y 1).isLt⟩ h1]
  unfold OUTpt
  rw [dif_neg hc6, pay5_apply, S2_eq, iblk5_apply]
  congr 1
  refine Finset.sum_congr rfl fun k _ => ?_
  congr 1
  · exact iblk1_apply m c _ _ _ (by show (i 0).val = _ * 400 + (y 0).val; rw [idx1_ge u h25 h48]; exact h0) rfl
  · exact congrArg _ (funext fun a => match a with | ⟨0, _⟩ => rfl | ⟨1, _⟩ => Fin.ext h1.symm)

set_option maxHeartbeats 4000000 in
/-- The block point 48 or 49 leaves, read at `(r, j)`, is the reference's result at row `400 · (t - 48) + r`. -/
theorem out_kept (c : Dev nD) (u : Fin cfg0.N) (h48 : 48 ≤ u.val) (y : S400x64.Idx) (i : Cert.ReferenceIdeal.S10000x64.Idx)
    (h0 : (i 0).val = (u.val - 48) * 400 + (y 0).val) (h1 : (i 1).val = (y 1).val) :
    OUTpt m c u y = val_main_v11 (F := Ideal) (AX m c) (AA m c) (AW1 m c) (AB1 m c) (AW2 m c) (AB2 m c) i := by
  have hc6 : cond6 (grid0.coords u) := (hcond6 u).mpr h48
  rw [Cert.ReferenceIdeal.Read.val_main_v11_apply, Cert.ReferenceIdeal.Read.val_main_v8_apply, ref_bias2 (AB2 m c) i ⟨(y 1).val, (y 1).isLt⟩ h1]
  unfold OUTpt
  rw [dif_pos hc6, pay6_apply, pay4_eq, S2_eq, iblk5_apply]
  congr 1
  refine Finset.sum_congr rfl fun k _ => ?_
  congr 1
  · exact CA_ld m c u hc6 ⟨(y 0).val, (y 0).isLt⟩ k _ h0 rfl
  · exact congrArg _ (funext fun a => match a with | ⟨0, _⟩ => rfl | ⟨1, _⟩ => Fin.ext h1.symm)

/-- The output array the kernel leaves is the reference's result. -/
theorem Gk_eq (c : Dev nD) : Gk m c = val_main_v11 (F := Ideal) (AX m c) (AA m c) (AW1 m c) (AB1 m c) (AW2 m c) (AB2 m c) := by
  funext i
  have hi0 : (i 0).val < 10000 := (i 0).isLt
  have hu50 : uOf ((i 0).val / 400) < 50 := by unfold uOf; split <;> omega
  have hu : (pt (uOf ((i 0).val / 400))).val = uOf ((i 0).val / 400) := pt_val _ hu50
  show OUTpt m c (pt (uOf ((i 0).val / 400))) (ix2 ⟨(i 0).val % 400, Nat.mod_lt _ (by omega)⟩ ⟨(i 1).val, (i 1).isLt⟩) = _
  by_cases hb : 2 ≤ (i 0).val / 400
  · have huv : (pt (uOf ((i 0).val / 400))).val = (i 0).val / 400 + 23 := by rw [hu]; unfold uOf; rw [if_pos hb]
    exact out_stream m c _ (by omega) (by omega) _ i (by show (i 0).val = _ * 400 + (i 0).val % 400; rw [huv]; omega) rfl
  · have huv : (pt (uOf ((i 0).val / 400))).val = (i 0).val / 400 + 48 := by rw [hu]; unfold uOf; rw [if_neg hb]
    exact out_kept m c _ (by omega) _ i (by show (i 0).val = _ * 400 + (i 0).val % 400; rw [huv]; omega) rfl

end Cert.KernelIdeal.Hand

end
-- ==== Proof.lean ====
/-
  A two-layer graph convolution with a dense adjacency, `out = adj · (relu(adj · (x · W1) + b1) · W2) + b2`, computed by one
  kernel over a grid of 2 × 25 points against the same expression written with whole-array products.

  The kernel's first phase projects the features once (`s1 = x · W1`) and then, 400 rows of the adjacency matrix at a time,
  computes the hidden layer's projection `s2 = relu(adj · s1 + b1) · W2` into a scratch it carries from point to point,
  keeping the first two adjacency blocks beside it. The second phase computes the output 400 rows at a time,
  `adj · s2 + b2`: the blocks `2 … 24` from the streamed adjacency rows, then the blocks `0, 1` from the kept rows and a
  narrowed copy of `s2`. Every output block is written back once in each phase; the later write-back wins.

  On the extended reals a change of float format is the identity and a matrix product is the plain sum of products, so
  the kept rows are the adjacency rows, the narrowed projection is the projection, and each row of the kernel's output
  is, sum for sum, the reference's: no algebraic law is needed beyond reading both sides at an index, and the
  precondition (finite inputs) is never opened.

  The frames of both printed kernels are proved from one body proof per kind of grid point (six kinds), stated over
  relational proof data: an input's staging buffer is left as found, the output's is named only where phase 1 stores it.
-/
import proofs.«177239_g36112085024795_cont_8to1_b_1394_22_alg».proof.Defs
import proofs.«177239_g36112085024795_cont_8to1_b_1394_22_alg».proof.Proof.Gen.Kernel
import proofs.«177239_g36112085024795_cont_8to1_b_1394_22_alg».proof.Proof.Gen.KernelIdeal
import proofs.«177239_g36112085024795_cont_8to1_b_1394_22_alg».proof.Proof.Gen.ReferenceIdeal
import proofs.«177239_g36112085024795_cont_8to1_b_1394_22_alg».proof.Proof.Gen.Pre_finite_inputs
import proofs.«177239_g36112085024795_cont_8to1_b_1394_22_alg».proof.Proof.Gen.ReferenceIdeal.Read
import proofs.«177239_g36112085024795_cont_8to1_b_1394_22_alg».proof.Proof.HandK.Run
import proofs.«177239_g36112085024795_cont_8to1_b_1394_22_alg».proof.Proof.Hand.Bridge
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- On the extended reals the kernel's output array and the reference's result are one function of the arguments. -/
theorem algebraic : Cert.algebraic_KernelIdeal_ReferenceIdeal := by
  intro m ρ m' ρ' _ hagree
  refine ⟨fun c => Cert.KernelIdeal.Hand.Gk m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v11_eq _ _ _ _ _ _).trans (Cert.KernelIdeal.Hand.Gk_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
